-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S65536x1024 .f32) (main_arg1 : FVec F S3072x1024 .f32) (main_arg2 : FVec F S3072 .f32) (main_arg3 : FVec F S1024x1024 .f32) (main_arg4 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S65536x1024 : Shape := ⟨2, ![65536, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩
abbrev S3072x1 : Shape := ⟨2, ![3072, 1]⟩
abbrev S1 : Shape := ⟨1, ![1]⟩
abbrev S1x1 : Shape := ⟨2, ![1, 1]⟩
abbrev S1024x3072 : Shape := ⟨2, ![1024, 3072]⟩
abbrev S1x3072 : Shape := ⟨2, ![1, 3072]⟩
abbrev S1x1024 : Shape := ⟨2, ![1, 1024]⟩
abbrev S512x1024 : Shape := ⟨2, ![512, 1024]⟩
abbrev S512x3072 : Shape := ⟨2, ![512, 3072]⟩
abbrev S512x16x64 : Shape := ⟨3, ![512, 16, 64]⟩
abbrev S512x16x16 : Shape := ⟨3, ![512, 16, 16]⟩
abbrev S512x16 : Shape := ⟨2, ![512, 16]⟩
abbrev S512x16x1 : Shape := ⟨3, ![512, 16, 1]⟩

abbrev nBuf : Space → Nat
  | .hbm => 58
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S3072, .i32⟩
  | .hbm, ⟨6, _⟩ => ⟨S_, .i32⟩
  | .hbm, ⟨7, _⟩ => ⟨S3072, .i32⟩
  | .hbm, ⟨8, _⟩ => ⟨S3072, .i1⟩
  | .hbm, ⟨9, _⟩ => ⟨S_, .i32⟩
  | .hbm, ⟨10, _⟩ => ⟨S3072, .i32⟩
  | .hbm, ⟨11, _⟩ => ⟨S3072, .i32⟩
  | .hbm, ⟨12, _⟩ => ⟨S3072, .i32⟩
  | .hbm, ⟨13, _⟩ => ⟨S3072x1, .i32⟩
  | .hbm, ⟨14, _⟩ => ⟨S1, .i32⟩
  | .hbm, ⟨15, _⟩ => ⟨S_, .i32⟩
  | .hbm, ⟨16, _⟩ => ⟨S3072x1, .i32⟩
  | .hbm, ⟨17, _⟩ => ⟨S3072x1, .i1⟩
  | .hbm, ⟨18, _⟩ => ⟨S1x1, .i32⟩
  | .hbm, ⟨19, _⟩ => ⟨S3072x1, .i32⟩
  | .hbm, ⟨20, _⟩ => ⟨S3072x1, .i1⟩
  | .hbm, ⟨21, _⟩ => ⟨S3072x1, .i1⟩
  | .hbm, ⟨22, _⟩ => ⟨S_, .i1⟩
  | .hbm, ⟨23, _⟩ => ⟨S3072, .i1⟩
  | .hbm, ⟨24, _⟩ => ⟨S3072x1024, .f32⟩
  | .hbm, ⟨25, _⟩ => ⟨S3072x1024, .i1⟩
  | .hbm, ⟨26, _⟩ => ⟨S_, .f32⟩
  | .hbm, ⟨27, _⟩ => ⟨S3072x1024, .f32⟩
  | .hbm, ⟨28, _⟩ => ⟨S3072x1024, .f32⟩
  | .hbm, ⟨29, _⟩ => ⟨S_, .i32⟩
  | .hbm, ⟨30, _⟩ => ⟨S3072, .i32⟩
  | .hbm, ⟨31, _⟩ => ⟨S3072, .i1⟩
  | .hbm, ⟨32, _⟩ => ⟨S_, .i32⟩
  | .hbm, ⟨33, _⟩ => ⟨S3072, .i32⟩
  | .hbm, ⟨34, _⟩ => ⟨S3072, .i32⟩
  | .hbm, ⟨35, _⟩ => ⟨S3072, .i32⟩
  | .hbm, ⟨36, _⟩ => ⟨S3072x1, .i32⟩
  | .hbm, ⟨37, _⟩ => ⟨S1, .i32⟩
  | .hbm, ⟨38, _⟩ => ⟨S_, .i32⟩
  | .hbm, ⟨39, _⟩ => ⟨S3072x1, .i32⟩
  | .hbm, ⟨40, _⟩ => ⟨S3072x1, .i1⟩
  | .hbm, ⟨41, _⟩ => ⟨S1x1, .i32⟩
  | .hbm, ⟨42, _⟩ => ⟨S3072x1, .i32⟩
  | .hbm, ⟨43, _⟩ => ⟨S3072x1, .i1⟩
  | .hbm, ⟨44, _⟩ => ⟨S3072x1, .i1⟩
  | .hbm, ⟨45, _⟩ => ⟨S_, .i1⟩
  | .hbm, ⟨46, _⟩ => ⟨S3072, .i1⟩
  | .hbm, ⟨47, _⟩ => ⟨S3072, .f32⟩
  | .hbm, ⟨48, _⟩ => ⟨S_, .f32⟩
  | .hbm, ⟨49, _⟩ => ⟨S3072, .f32⟩
  | .hbm, ⟨50, _⟩ => ⟨S3072, .f32⟩
  | .hbm, ⟨51, _⟩ => ⟨S1024x3072, .f32⟩
  | .hbm, ⟨52, _⟩ => ⟨S1024x3072, .bf16⟩
  | .hbm, ⟨53, _⟩ => ⟨S1024x1024, .f32⟩
  | .hbm, ⟨54, _⟩ => ⟨S1024x1024, .bf16⟩
  | .hbm, ⟨55, _⟩ => ⟨S1x3072, .f32⟩
  | .hbm, ⟨56, _⟩ => ⟨S1x1024, .f32⟩
  | .hbm, ⟨57, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S3072 : S_.BroadcastsInDim S3072 (![] : Fin 0 → Fin S3072.rank)
  bcast_S3072_S3072x1_0 : S3072.BroadcastsInDim S3072x1 (![0] : Fin 1 → Fin S3072x1.rank)
  bcast_S_S3072x1 : S_.BroadcastsInDim S3072x1 (![] : Fin 0 → Fin S3072x1.rank)
  bcast_S1_S1x1_1 : S1.BroadcastsInDim S1x1 (![1] : Fin 1 → Fin S1x1.rank)
  bcast_S1x1_S3072x1_0_1 : S1x1.BroadcastsInDim S3072x1 (![0, 1] : Fin 2 → Fin S3072x1.rank)
  reducesTo_S3072x1_S3072_d1 : S3072x1.ReducesTo [1] S3072
  h_S_ : 0 < S_.numel
  bcast_S3072_S3072x1024_0 : S3072.BroadcastsInDim S3072x1024 (![0] : Fin 1 → Fin S3072x1024.rank)
  bcast_S_S3072x1024 : S_.BroadcastsInDim S3072x1024 (![] : Fin 0 → Fin S3072x1024.rank)
  transposes_S3072x1024_S1024x3072_1_0 : S3072x1024.Transposes [1, 0] S1024x3072
  bitsLt_bf16_f32 : FTy.bits .bf16 < FTy.bits .f32
  transposes_S1024x1024_S1024x1024_1_0 : S1024x1024.Transposes [1, 0] S1024x1024
  shapeCasts_S3072_S1x3072 : S3072.ShapeCasts S1x3072
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  shapeCasts_S512x1024_S512x16x64 : S512x1024.ShapeCasts S512x16x64
  reduces_S512x16x16_S512x16 : S512x16x16.Reduces [2] S512x16
  shapeCasts_S512x16_S512x16x1 : S512x16.ShapeCasts S512x16x1
  broadcasts_S512x16x1_S512x16x16 : S512x16x1.Broadcasts S512x16x16
  shapeCasts_S512x16x64_S512x1024 : S512x16x64.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  gather_S3072x1024_S3072x1_S3072x1024_1_0_n_n_0_1_11024_wf : GatherDims.WF S3072x1024 S3072x1 S3072x1024 [1] [0] [] [0] [] 1 ![1, 1024]
  gather_S3072_S3072x1_S3072_n_0_n_n_0_1_1_wf : GatherDims.WF S3072 S3072x1 S3072 [] [0] [] [0] [] 1 ![1]
  dot_S512x1024_S1024x3072_S512x3072_1_0_0_1_n_n_wf : DotDims.WF S512x1024 S1024x3072 S512x3072 [1] [0] [0] [1] [] []
  dot_S512x16x64_S512x16x64_S512x16x16_2_2_1_1_0_0_wf : DotDims.WF S512x16x64 S512x16x64 S512x16x16 [2] [2] [1] [1] [0] [0]
  dot_S512x16x16_S512x16x64_S512x16x64_2_1_1_2_0_0_wf : DotDims.WF S512x16x16 S512x16x64 S512x16x64 [2] [1] [1] [2] [0] [0]
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S65536x1024.size a
  hwx0_0 : ∀ i : grid0.Coords, EltTy.bits .f32 = 32 ∨ (Rect.block (s := S65536x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S65536x1024.size a
  hwx0_5 : ∀ i : grid0.Coords, EltTy.bits .f32 = 32 ∨ (Rect.block (s := S65536x1024) S512x1024.size (cc0_transform_5 i) (hinb0_5 i)).WholeWords (EltTy.packing .f32)

variable [Facts₀]

def gather_S3072x1024_S3072x1_S3072x1024_1_0_n_n_0_1_11024 : GatherDims S3072x1024 S3072x1 S3072x1024 where
  offsetDims := [1]
  collapsedSliceDims := [0]
  operandBatchingDims := []
  startIndicesBatchingDims := []
  startIndexMap := [0]
  indexVectorDim := 1
  sliceSizes := ![1, 1024]
  wf := gather_S3072x1024_S3072x1_S3072x1024_1_0_n_n_0_1_11024_wf
def gather_S3072_S3072x1_S3072_n_0_n_n_0_1_1 : GatherDims S3072 S3072x1 S3072 where
  offsetDims := []
  collapsedSliceDims := [0]
  operandBatchingDims := []
  startIndicesBatchingDims := []
  startIndexMap := [0]
  indexVectorDim := 1
  sliceSizes := ![1]
  wf := gather_S3072_S3072x1_S3072_n_0_n_n_0_1_1_wf
def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x16x64_S512x16x64_S512x16x16_2_2_1_1_0_0 : DotDims S512x16x64 S512x16x64 S512x16x16 where
  lhsContracting := [2]
  rhsContracting := [2]
  lhsNonContracting := [1]
  rhsNonContracting := [1]
  lhsBatch := [0]
  rhsBatch := [0]
  wf := dot_S512x16x64_S512x16x64_S512x16x16_2_2_1_1_0_0_wf
def dot_S512x16x16_S512x16x64_S512x16x64_2_1_1_2_0_0 : DotDims S512x16x16 S512x16x64 S512x16x64 where
  lhsContracting := [2]
  rhsContracting := [1]
  lhsNonContracting := [1]
  rhsNonContracting := [2]
  lhsBatch := [0]
  rhsBatch := [0]
  wf := dot_S512x16x16_S512x16x64_S512x16x64_2_1_1_2_0_0_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1024x3072 : Shape := ⟨2, ![1024, 3072]⟩
abbrev S65536x3072 : Shape := ⟨2, ![65536, 3072]⟩
abbrev S1x3072 : Shape := ⟨2, ![1, 3072]⟩
abbrev S65536x16x192 : Shape := ⟨3, ![65536, 16, 192]⟩
abbrev S65536x16x64 : Shape := ⟨3, ![65536, 16, 64]⟩
abbrev S_ : Shape := ⟨0, ![]⟩
abbrev S65536x16x16 : Shape := ⟨3, ![65536, 16, 16]⟩
abbrev S65536x16 : Shape := ⟨2, ![65536, 16]⟩
abbrev S65536x16x1 : Shape := ⟨3, ![65536, 16, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S1024x3072, .f32⟩
  | .hbm, ⟨6, _⟩ => ⟨S65536x3072, .f32⟩
  | .hbm, ⟨7, _⟩ => ⟨S1x3072, .f32⟩
  | .hbm, ⟨8, _⟩ => ⟨S65536x3072, .f32⟩
  | .hbm, ⟨9, _⟩ => ⟨S65536x3072, .f32⟩
  | .hbm, ⟨10, _⟩ => ⟨S65536x16x192, .f32⟩
  | .hbm, ⟨11, _⟩ => ⟨S65536x16x64, .f32⟩
  | .hbm, ⟨12, _⟩ => ⟨S65536x16x64, .f32⟩
  | .hbm, ⟨13, _⟩ => ⟨S65536x16x64, .f32⟩
  | .hbm, ⟨14, _⟩ => ⟨S_, .f32⟩
  | .hbm, ⟨15, _⟩ => ⟨S65536x16x64, .f32⟩
  | .hbm, ⟨16, _⟩ => ⟨S65536x16x64, .f32⟩
  | .hbm, ⟨17, _⟩ => ⟨S65536x16x16, .f32⟩
  | .hbm, ⟨18, _⟩ => ⟨S_, .f32⟩
  | .hbm, ⟨19, _⟩ => ⟨S65536x16, .f32⟩
  | .hbm, ⟨20, _⟩ => ⟨S_, .f32⟩
  | .hbm, ⟨21, _⟩ => ⟨S65536x16, .f32⟩
  | .hbm, ⟨22, _⟩ => ⟨S65536x16, .f32⟩
  | .hbm, ⟨23, _⟩ => ⟨S65536x16x1, .f32⟩
  | .hbm, ⟨24, _⟩ => ⟨S65536x16x16, .f32⟩
  | .hbm, ⟨25, _⟩ => ⟨S65536x16x16, .f32⟩
  | .hbm, ⟨26, _⟩ => ⟨S65536x16x16, .f32⟩
  | .hbm, ⟨27, _⟩ => ⟨S_, .f32⟩
  | .hbm, ⟨28, _⟩ => ⟨S65536x16, .f32⟩
  | .hbm, ⟨29, _⟩ => ⟨S65536x16x1, .f32⟩
  | .hbm, ⟨30, _⟩ => ⟨S65536x16x16, .f32⟩
  | .hbm, ⟨31, _⟩ => ⟨S65536x16x16, .f32⟩
  | .hbm, ⟨32, _⟩ => ⟨S65536x16x64, .f32⟩
  | .hbm, ⟨33, _⟩ => ⟨S65536x1024, .f32⟩
  | .hbm, ⟨34, _⟩ => ⟨S1024x1024, .f32⟩
  | .hbm, ⟨35, _⟩ => ⟨S65536x1024, .f32⟩
  | .hbm, ⟨36, _⟩ => ⟨S1x1024, .f32⟩
  | .hbm, ⟨37, _⟩ => ⟨S65536x1024, .f32⟩
  | .hbm, ⟨38, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  transposes_S3072x1024_S1024x3072_1_0 : S3072x1024.Transposes [1, 0] S1024x3072
  bcast_S3072_S1x3072_1 : S3072.BroadcastsInDim S1x3072 (![1] : Fin 1 → Fin S1x3072.rank)
  bcast_S1x3072_S65536x3072_0_1 : S1x3072.BroadcastsInDim S65536x3072 (![0, 1] : Fin 2 → Fin S65536x3072.rank)
  shapeCasts_S65536x3072_S65536x16x192 : S65536x3072.ShapeCasts S65536x16x192
  slices_S65536x16x192_S65536x16x64_0_0_0 : S65536x16x192.Slices ![0, 0, 0] S65536x16x64
  slices_S65536x16x192_S65536x16x64_0_0_64 : S65536x16x192.Slices ![0, 0, 64] S65536x16x64
  slices_S65536x16x192_S65536x16x64_0_0_128 : S65536x16x192.Slices ![0, 0, 128] S65536x16x64
  bcast_S_S65536x16x64 : S_.BroadcastsInDim S65536x16x64 (![] : Fin 0 → Fin S65536x16x64.rank)
  reducesTo_S65536x16x16_S65536x16_d2 : S65536x16x16.ReducesTo [2] S65536x16
  h_S_ : 0 < S_.numel
  bcast_S_S65536x16 : S_.BroadcastsInDim S65536x16 (![] : Fin 0 → Fin S65536x16.rank)
  bcast_S65536x16_S65536x16x1_0_1 : S65536x16.BroadcastsInDim S65536x16x1 (![0, 1] : Fin 2 → Fin S65536x16x1.rank)
  bcast_S65536x16x1_S65536x16x16_0_1_2 : S65536x16x1.BroadcastsInDim S65536x16x16 (![0, 1, 2] : Fin 3 → Fin S65536x16x16.rank)
  shapeCasts_S65536x16x64_S65536x1024 : S65536x16x64.ShapeCasts S65536x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  dot_S65536x1024_S1024x3072_S65536x3072_1_0_0_1_n_n_wf : DotDims.WF S65536x1024 S1024x3072 S65536x3072 [1] [0] [0] [1] [] []
  dot_S65536x16x64_S65536x16x64_S65536x16x16_2_2_1_1_0_0_wf : DotDims.WF S65536x16x64 S65536x16x64 S65536x16x16 [2] [2] [1] [1] [0] [0]
  dot_S65536x16x16_S65536x16x64_S65536x16x64_2_1_1_2_0_0_wf : DotDims.WF S65536x16x16 S65536x16x64 S65536x16x64 [2] [1] [1] [2] [0] [0]
  dot_S65536x1024_S1024x1024_S65536x1024_1_0_0_1_n_n_wf : DotDims.WF S65536x1024 S1024x1024 S65536x1024 [1] [0] [0] [1] [] []

variable [Facts₀]

def dot_S65536x1024_S1024x3072_S65536x3072_1_0_0_1_n_n : DotDims S65536x1024 S1024x3072 S65536x3072 where
  lhsContracting := [1]
  rhsContracting := [0]
  lhsNonContracting := [0]
  rhsNonContracting := [1]
  lhsBatch := []
  rhsBatch := []
  wf := dot_S65536x1024_S1024x3072_S65536x3072_1_0_0_1_n_n_wf
def dot_S65536x16x64_S65536x16x64_S65536x16x16_2_2_1_1_0_0 : DotDims S65536x16x64 S65536x16x64 S65536x16x16 where
  lhsContracting := [2]
  rhsContracting := [2]
  lhsNonContracting := [1]
  rhsNonContracting := [1]
  lhsBatch := [0]
  rhsBatch := [0]
  wf := dot_S65536x16x64_S65536x16x64_S65536x16x16_2_2_1_1_0_0_wf
def dot_S65536x16x16_S65536x16x64_S65536x16x64_2_1_1_2_0_0 : DotDims S65536x16x16 S65536x16x64 S65536x16x64 where
  lhsContracting := [2]
  rhsContracting := [1]
  lhsNonContracting := [1]
  rhsNonContracting := [2]
  lhsBatch := [0]
  rhsBatch := [0]
  wf := dot_S65536x16x16_S65536x16x64_S65536x16x64_2_1_1_2_0_0_wf
def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf

class Facts : Prop extends Facts₀ where

variable [Facts]
-- ==== Proof.AttnSpec.lean ====
/-
  The mathematics both programs compute, one row at a time, on the extended reals.

  A row `x : Fin 1024 → EReal` is sent through an affine layer to three tables `q k v : Fin 16 → Fin 64 → EReal`
  (sixteen heads of width sixty-four). Attention runs over the HEAD axis of that one row: the score of heads
  `h, g` is `∑ d, (q h d · 1/8) · k g d`; each row of scores is turned into weights by a softmax taken as
  `exp (s − max s) / ∑ exp (s − max s)`, the maximum folded from −∞; the weights mix the rows of `v`; the
  sixteen mixed rows, laid side by side as 1024 entries, go through a second affine layer.
  `G` is the whole result array as one function of the five argument arrays, index by index.
-/
import Idealize.ShloMosaic.PureOps.Ideal
import Idealize.ShloMosaic.Lib.ValueIdx

noncomputable section

open scoped BigOperators

namespace Cert.Attn

open Idealize.ShloMosaic Idealize.ShloMosaic.ValueIdx

/-- The scale 64^(-1/2) = 1/8, as the word both programs carry. -/
def scale : EReal := Ideal.ofBits .f32 0x3E000000#32

/-- −∞ as the word both programs fold the maximum from. -/
def negInf : EReal := Ideal.ofBits .f32 0xFF800000#32

/-- One entry of an affine layer: the inner product of a row with a weight row, plus a bias. -/
def lin {K : Nat} (x w : Fin K → EReal) (b : EReal) : EReal := (∑ k : Fin K, x k * w k) + b

/-- The score of heads `h` and `g`. -/
def score (q k : Fin 16 → Fin 64 → EReal) (h g : Fin 16) : EReal := ∑ d : Fin 64, (q h d * scale) * k g d

/-- The largest score of head `h`, folded from −∞. -/
def rowMax (s : Fin 16 → Fin 16 → EReal) (h : Fin 16) : EReal :=
  (Finset.univ : Finset (Fin 16)).fold max negInf (s h)

/-- The shifted exponential of a score. -/
def ex (s : Fin 16 → Fin 16 → EReal) (h g : Fin 16) : EReal := Ideal.exp (s h g - rowMax s h)

/-- The softmax weight of head `g` for head `h`. -/
def prob (s : Fin 16 → Fin 16 → EReal) (h g : Fin 16) : EReal := Ideal.div (ex s h g) (∑ g' : Fin 16, ex s h g')

/-- Head `h`'s mixture of the rows of `v`, at lane `d`. -/
def attn (q k v : Fin 16 → Fin 64 → EReal) (h : Fin 16) (d : Fin 64) : EReal :=
  ∑ g : Fin 16, prob (score q k) h g * v g d

/-- The head of entry `c` of the 1024 side-by-side entries. -/
def headOf (c : Fin 1024) : Fin 16 := ⟨c.val / 64, by have := c.isLt; omega⟩
/-- The lane of entry `c`. -/
def laneOf (c : Fin 1024) : Fin 64 := ⟨c.val % 64, Nat.mod_lt _ (by decide)⟩

/-- One entry of the result row from the three tables: the mixed rows side by side through the second layer. -/
def core (q k v : Fin 16 → Fin 64 → EReal) (wo : Fin 1024 → EReal) (bo : EReal) : EReal :=
  lin (fun c : Fin 1024 => attn q k v (headOf c) (laneOf c)) wo bo

/-- In the fused weight's own column order head `h` owns columns `192 h … 192 h + 191`: `q`, then `k`, then `v`. -/
def qcol (h : Fin 16) (d : Fin 64) : Fin 3072 := ⟨192 * h.val + d.val, by have := h.isLt; have := d.isLt; omega⟩
def kcol (h : Fin 16) (d : Fin 64) : Fin 3072 := ⟨192 * h.val + 64 + d.val, by have := h.isLt; have := d.isLt; omega⟩
def vcol (h : Fin 16) (d : Fin 64) : Fin 3072 := ⟨192 * h.val + 128 + d.val, by have := h.isLt; have := d.isLt; omega⟩

/-- A table of the first layer: entry `(h, d)` is column `col h d` of the row's image. -/
def table (col : Fin 16 → Fin 64 → Fin 3072) (x : Fin 1024 → EReal) (W : Fin 3072 → Fin 1024 → EReal) (B : Fin 3072 → EReal)
    (h : Fin 16) (d : Fin 64) : EReal := lin x (W (col h d)) (B (col h d))

/-- THE RESULT ARRAY as one function of the argument arrays. -/
def G (x : (⟨2, ![65536, 1024]⟩ : Shape).Idx → EReal) (wqkv : (⟨2, ![3072, 1024]⟩ : Shape).Idx → EReal)
    (bqkv : (⟨1, ![3072]⟩ : Shape).Idx → EReal) (wout : (⟨2, ![1024, 1024]⟩ : Shape).Idx → EReal)
    (bout : (⟨1, ![1024]⟩ : Shape).Idx → EReal) : (⟨2, ![65536, 1024]⟩ : Shape).Idx → EReal := fun i =>
  core (table qcol (fun k => x (ix2 (i 0) k)) (fun c k => wqkv (ix2 c k)) (fun c => bqkv (ix1 c)))
       (table kcol (fun k => x (ix2 (i 0) k)) (fun c k => wqkv (ix2 c k)) (fun c => bqkv (ix1 c)))
       (table vcol (fun k => x (ix2 (i 0) k)) (fun c k => wqkv (ix2 c k)) (fun c => bqkv (ix1 c)))
       (fun c => wout (ix2 (i 1) c)) (bout (ix1 (i 1)))

/-! ## The kernel's column order

The kernel is handed the first layer's weights with the 3072 columns re-ordered — all of `q` first, then all of
`k`, then all of `v`, each as sixteen heads of sixty-four lanes — so that new column `c` holds old column `perm c`. -/

def qcolK (h : Fin 16) (d : Fin 64) : Fin 3072 := ⟨64 * h.val + d.val, by have := h.isLt; have := d.isLt; omega⟩
def kcolK (h : Fin 16) (d : Fin 64) : Fin 3072 := ⟨1024 + 64 * h.val + d.val, by have := h.isLt; have := d.isLt; omega⟩
def vcolK (h : Fin 16) (d : Fin 64) : Fin 3072 := ⟨2048 + 64 * h.val + d.val, by have := h.isLt; have := d.isLt; omega⟩

/-- Old column of new column `c = 1024·part + 64·head + lane`: `192·head + 64·part + lane`. -/
def perm (c : Fin 3072) : Fin 3072 :=
  ⟨192 * (c.val % 1024 / 64) + 64 * (c.val / 1024) + c.val % 64, by have := c.isLt; omega⟩

theorem perm_qcolK (h : Fin 16) (d : Fin 64) : perm (qcolK h d) = qcol h d :=
  Fin.ext (by have := h.isLt; have := d.isLt; show 192 * ((64 * h.val + d.val) % 1024 / 64) + 64 * ((64 * h.val + d.val) / 1024) + (64 * h.val + d.val) % 64 = 192 * h.val + d.val; omega)
theorem perm_kcolK (h : Fin 16) (d : Fin 64) : perm (kcolK h d) = kcol h d :=
  Fin.ext (by have := h.isLt; have := d.isLt; show 192 * ((1024 + 64 * h.val + d.val) % 1024 / 64) + 64 * ((1024 + 64 * h.val + d.val) / 1024) + (1024 + 64 * h.val + d.val) % 64 = 192 * h.val + 64 + d.val; omega)
theorem perm_vcolK (h : Fin 16) (d : Fin 64) : perm (vcolK h d) = vcol h d :=
  Fin.ext (by have := h.isLt; have := d.isLt; show 192 * ((2048 + 64 * h.val + d.val) % 1024 / 64) + 64 * ((2048 + 64 * h.val + d.val) / 1024) + (2048 + 64 * h.val + d.val) % 64 = 192 * h.val + 128 + d.val; omega)

/-- A table read through re-ordered weights is the table of the original weights at the original column. -/
theorem table_perm (colK col : Fin 16 → Fin 64 → Fin 3072) (hc : ∀ h d, perm (colK h d) = col h d)
    (x : Fin 1024 → EReal) (W : Fin 3072 → Fin 1024 → EReal) (B : Fin 3072 → EReal) :
    table colK x (fun c => W (perm c)) (fun c => B (perm c)) = table col x W B := by
  funext h d
  show lin x (W (perm (colK h d))) (B (perm (colK h d))) = lin x (W (col h d)) (B (col h d))
  rw [hc h d]

/-- Folding `max` from a value never goes below it, so taking `max` with that value again changes nothing. -/
theorem max_fold_self {n : Nat} (b : EReal) (f : Fin n → EReal) :
    max b ((Finset.univ : Finset (Fin n)).fold max b f) = (Finset.univ : Finset (Fin n)).fold max b f :=
  max_eq_right (Finset.le_fold_max b |>.mpr (Or.inl le_rfl))

end Cert.Attn

end
-- ==== Proof.Blocks.lean ====
/-
  From blocks to the array. The kernel walks the 65536 rows in 128 blocks of 512 rows. At block `t` it reads rows
  `512·t … 512·t + 511` of the input, and — the same at every block — the whole first-layer weight (its columns re-ordered,
  transposed), the whole first-layer bias (re-ordered, as one row), the whole transposed second-layer weight and the
  second-layer bias as one row; it writes rows `512·t … 512·t + 511` of the result. Every row of the result depends
  on the same row of the input only, so what block `t` writes is block `t` of ONE function `Gm` of the arrays as
  launched (`flushed_eq`), the 128 blocks cover the array (`cover`), and the array ends at `Gm` (`final`, `run`).

  Two facts are taken here as hypotheses and proved elsewhere: `PayFact`, what the body computes at an entry from its
  five loaded blocks, and `ProFact`, what the four prepared operand arrays hold in terms of the arrays as launched.
-/
import proofs.«124298_j72189810312078_2_alg».proof.Proof.Gen.KernelIdeal.Value
import proofs.«124298_j72189810312078_2_alg».proof.Proof.AttnSpec
import Idealize.ShloMosaic.Lib.Pipeline.Value
import Idealize.ShloMosaic.Lib.ValueIdx

set_option maxRecDepth 16384

noncomputable section

namespace Cert.Attn.Blocks

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx
open Cert.Attn

variable (m : (ℓ : Loc nD τ sig) → Buf (Elt Ideal) ℓ) (ρ : Dev nD → PrngReg)

/-- The zero offsets of a whole-block rectangle. -/
theorem hz : (![0, 0] : Fin 2 → Nat) = fun _ => 0 := funext fun a => by fin_cases a <;> rfl

/-- The index maps over the grid: the input and the result move with the point along the rows; the four prepared
    operands stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What the body computes at entry `(p, j)` of its block, from the five loaded blocks: the per-row attention of row
    `p` through the re-ordered weights. -/
def PayFact : Prop :=
  ∀ (x0 : Vec Ideal S512x1024 .f32) (x1 : Vec Ideal S1024x3072 .bf16) (x2 : Vec Ideal S1x3072 .f32)
    (x3 : Vec Ideal S1024x1024 .bf16) (x4 : Vec Ideal S1x1024 .f32) (p : Fin 512) (j : Fin 1024),
    k0_pay1 (F := Ideal) x0 x1 x2 x3 x4 (ix2 p j)
      = core (table qcolK (fun k => x0 (ix2 p k)) (fun c k => x1 (ix2 k c)) (fun c => x2 (ix2 (0 : Fin 1) c)))
             (table kcolK (fun k => x0 (ix2 p k)) (fun c k => x1 (ix2 k c)) (fun c => x2 (ix2 (0 : Fin 1) c)))
             (table vcolK (fun k => x0 (ix2 p k)) (fun c k => x1 (ix2 k c)) (fun c => x2 (ix2 (0 : Fin 1) c)))
             (fun c => x3 (ix2 c j)) (x4 (ix2 (0 : Fin 1) j))

/-- What the region finds in its four prepared operand arrays, in terms of the arrays as launched: re-ordered by
    `perm` and transposed. -/
def ProFact : Prop :=
  ∀ c : Dev nD,
    (∀ (k : Fin 1024) (cc : Fin 3072), (V m c main_v3 : S1024x3072.Idx → EReal) (ix2 k cc) = (m ((c : Thread nD τ).loc main_arg1) : S3072x1024.Idx → EReal) (ix2 (perm cc) k))
    ∧ (∀ cc : Fin 3072, (V m c main_v6 : S1x3072.Idx → EReal) (ix2 (0 : Fin 1) cc) = (m ((c : Thread nD τ).loc main_arg2) : S3072.Idx → EReal) (ix1 (perm cc)))
    ∧ (∀ k j : Fin 1024, (V m c main_v5 : S1024x1024.Idx → EReal) (ix2 k j) = (m ((c : Thread nD τ).loc main_arg3) : S1024x1024.Idx → EReal) (ix2 j k))
    ∧ (∀ j : Fin 1024, (V m c main_v7 : S1x1024.Idx → EReal) (ix2 (0 : Fin 1) j) = (m ((c : Thread nD τ).loc main_arg4) : S1024.Idx → EReal) (ix1 j))

/-- The result array from the arrays as launched. -/
def Gm (c : Dev nD) : S65536x1024.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-- A table read through weights whose columns are re-ordered by `perm` is the table of the original weights at the
    original columns. -/
theorem table_eq (colK col : Fin 16 → Fin 64 → Fin 3072) (hc : ∀ h d, perm (colK h d) = col h d)
    (x x' : Fin 1024 → EReal) (W' W : Fin 3072 → Fin 1024 → EReal) (B' B : Fin 3072 → EReal)
    (hx : ∀ k, x' k = x k) (hW : ∀ c k, W' c k = W (perm c) k) (hB : ∀ c, B' c = B (perm c)) :
    table colK x' W' B' = table col x W B := by
  funext h d
  unfold table lin
  rw [hB, hc h d]
  congr 1
  refine Finset.sum_congr rfl fun k _ => ?_
  rw [hx, hW, hc h d]

/-- One entry: the body's payload on blocks that are rows of `X`, the re-ordered transposed `W`, the re-ordered `B`,
    the transposed `Wo` and `Bo` is the specification's entry of the same row and column. -/
theorem point_eq (hpay : PayFact) (x0 : Vec Ideal S512x1024 .f32) (x1 : Vec Ideal S1024x3072 .bf16) (x2 : Vec Ideal S1x3072 .f32)
    (x3 : Vec Ideal S1024x1024 .bf16) (x4 : Vec Ideal S1x1024 .f32) (y : S512x1024.Idx)
    (X : S65536x1024.Idx → EReal) (W : S3072x1024.Idx → EReal) (B : S3072.Idx → EReal) (Wo : S1024x1024.Idx → EReal) (Bo : S1024.Idx → EReal)
    (i : S65536x1024.Idx) (hi : i 1 = y 1)
    (h0 : ∀ k : Fin 1024, x0 (ix2 (y 0) k) = X (ix2 (i 0) k))
    (h1 : ∀ (k : Fin 1024) (cc : Fin 3072), x1 (ix2 k cc) = W (ix2 (perm cc) k))
    (h2 : ∀ cc : Fin 3072, x2 (ix2 (0 : Fin 1) cc) = B (ix1 (perm cc)))
    (h3 : ∀ k j : Fin 1024, x3 (ix2 k j) = Wo (ix2 j k))
    (h4 : ∀ j : Fin 1024, x4 (ix2 (0 : Fin 1) j) = Bo (ix1 j)) :
    k0_pay1 (F := Ideal) x0 x1 x2 x3 x4 y = G X W B Wo Bo i := by
  obtain ⟨p, j, rfl⟩ : ∃ (p : Fin 512) (j : Fin 1024), y = ix2 p j := ⟨y 0, y 1, eq_ix2 y⟩
  rw [hpay x0 x1 x2 x3 x4 p j]
  unfold G
  have tq := table_eq qcolK qcol perm_qcolK (fun k => X (ix2 (i 0) k)) (fun k => x0 (ix2 p k)) (fun c k => x1 (ix2 k c))
    (fun c k => W (ix2 c k)) (fun c => x2 (ix2 (0 : Fin 1) c)) (fun c => B (ix1 c)) h0 (fun c k => h1 k c) h2
  have tk := table_eq kcolK kcol perm_kcolK (fun k => X (ix2 (i 0) k)) (fun k => x0 (ix2 p k)) (fun c k => x1 (ix2 k c))
    (fun c k => W (ix2 c k)) (fun c => x2 (ix2 (0 : Fin 1) c)) (fun c => B (ix1 c)) h0 (fun c k => h1 k c) h2
  have tv := table_eq vcolK vcol perm_vcolK (fun k => X (ix2 (i 0) k)) (fun k => x0 (ix2 p k)) (fun c k => x1 (ix2 k c))
    (fun c k => W (ix2 c k)) (fun c => x2 (ix2 (0 : Fin 1) c)) (fun c => B (ix1 c)) h0 (fun c k => h1 k c) h2
  have e3 : (fun c : Fin 1024 => x3 (ix2 c j)) = fun c => Wo (ix2 (i 1) c) := by
    funext c; rw [h3 c j, hi]
  have e4 : x4 (ix2 (0 : Fin 1) j) = Bo (ix1 (i 1)) := by rw [h4 j, hi]
  rw [tq, tk, tv, e3, e4]

/-- Row `p` of point `t`'s block of the first operand is row `512·t + p` of the array as launched. -/
theorem blk0 (c : Dev nD) (t : Fin cfg0.N) (y : S512x1024.Idx) (k : Fin 1024) :
    iblk m c 0 t (ix2 (y 0) k) = (m ((c : Thread nD τ).loc main_arg0) : S65536x1024.Idx → EReal) (ix2 ((((cfg0.win 5).blk t).view.emb y) 0) k) := by
  obtain ⟨a0, a1, b0, b1, c0, c1, d0, d1, f0, f1, g0, g1⟩ := idx_facts t
  show V m c main_arg0 (((cfg0.win 0).blk t).view.emb (ix2 (y 0) k)) = _
  rw [V_main_arg0]
  congr 1
  funext a; apply Fin.ext
  match a with
  | ⟨0, _⟩ => show win0_0.index t (0 : Fin 2) * 512 + 1 * (y 0).val = win0_5.index t (0 : Fin 2) * 512 + 1 * (y 0).val; omega
  | ⟨1, _⟩ => show win0_0.index t (1 : Fin 2) * 1024 + 1 * k.val = k.val; omega

/-- The column of a block's entry is the array's column: the blocks span all 1024 columns. -/
theorem col5 (t : Fin cfg0.N) (y : S512x1024.Idx) : (((cfg0.win 5).blk t).view.emb y) 1 = y 1 := by
  obtain ⟨a0, a1, b0, b1, c0, c1, d0, d1, f0, f1, g0, g1⟩ := idx_facts t
  apply Fin.ext
  show win0_5.index t (1 : Fin 2) * 1024 + 1 * (y 1).val = (y 1).val
  omega

/-- The second operand's block at every point is the whole re-ordered, transposed first-layer weight. -/
theorem blk1 (hpro : ProFact m) (c : Dev nD) (t : Fin cfg0.N) (k : Fin 1024) (cc : Fin 3072) :
    iblk m c 1 t (ix2 k cc) = (m ((c : Thread nD τ).loc main_arg1) : S3072x1024.Idx → EReal) (ix2 (perm cc) k) := by
  obtain ⟨a0, a1, b0, b1, c0, c1, d0, d1, f0, f1, g0, g1⟩ := idx_facts t
  obtain ⟨p3, p6, p5, p7⟩ := hpro c
  show V m c main_v3 (((cfg0.win 1).blk t).view.emb (ix2 k cc)) = _
  rw [← p3 k cc]
  congr 1
  funext a; apply Fin.ext
  match a with
  | ⟨0, _⟩ => show win0_1.index t (0 : Fin 2) * 1024 + 1 * k.val = k.val; omega
  | ⟨1, _⟩ => show win0_1.index t (1 : Fin 2) * 3072 + 1 * cc.val = cc.val; omega

/-- The third operand's block is the whole re-ordered first-layer bias, as one row. -/
theorem blk2 (hpro : ProFact m) (c : Dev nD) (t : Fin cfg0.N) (cc : Fin 3072) :
    iblk m c 2 t (ix2 (0 : Fin 1) cc) = (m ((c : Thread nD τ).loc main_arg2) : S3072.Idx → EReal) (ix1 (perm cc)) := by
  obtain ⟨a0, a1, b0, b1, c0, c1, d0, d1, f0, f1, g0, g1⟩ := idx_facts t
  obtain ⟨p3, p6, p5, p7⟩ := hpro c
  show V m c main_v6 (((cfg0.win 2).blk t).view.emb (ix2 (0 : Fin 1) cc)) = _
  rw [← p6 cc]
  congr 1
  funext a; apply Fin.ext
  match a with
  | ⟨0, _⟩ => show win0_2.index t (0 : Fin 2) * 1 + 1 * 0 = 0; omega
  | ⟨1, _⟩ => show win0_2.index t (1 : Fin 2) * 3072 + 1 * cc.val = cc.val; omega

/-- The fourth operand's block is the whole transposed second-layer weight. -/
theorem blk3 (hpro : ProFact m) (c : Dev nD) (t : Fin cfg0.N) (k j : Fin 1024) :
    iblk m c 3 t (ix2 k j) = (m ((c : Thread nD τ).loc main_arg3) : S1024x1024.Idx → EReal) (ix2 j k) := by
  obtain ⟨a0, a1, b0, b1, c0, c1, d0, d1, f0, f1, g0, g1⟩ := idx_facts t
  obtain ⟨p3, p6, p5, p7⟩ := hpro c
  show V m c main_v5 (((cfg0.win 3).blk t).view.emb (ix2 k j)) = _
  rw [← p5 k j]
  congr 1
  funext a; apply Fin.ext
  match a with
  | ⟨0, _⟩ => show win0_3.index t (0 : Fin 2) * 1024 + 1 * k.val = k.val; omega
  | ⟨1, _⟩ => show win0_3.index t (1 : Fin 2) * 1024 + 1 * j.val = j.val; omega

/-- The fifth operand's block is the whole second-layer bias, as one row. -/
theorem blk4 (hpro : ProFact m) (c : Dev nD) (t : Fin cfg0.N) (j : Fin 1024) :
    iblk m c 4 t (ix2 (0 : Fin 1) j) = (m ((c : Thread nD τ).loc main_arg4) : S1024.Idx → EReal) (ix1 j) := by
  obtain ⟨a0, a1, b0, b1, c0, c1, d0, d1, f0, f1, g0, g1⟩ := idx_facts t
  obtain ⟨p3, p6, p5, p7⟩ := hpro c
  show V m c main_v7 (((cfg0.win 4).blk t).view.emb (ix2 (0 : Fin 1) j)) = _
  rw [← p7 j]
  congr 1
  funext a; apply Fin.ext
  match a with
  | ⟨0, _⟩ => show win0_4.index t (0 : Fin 2) * 1 + 1 * 0 = 0; omega
  | ⟨1, _⟩ => show win0_4.index t (1 : Fin 2) * 1024 + 1 * j.val = j.val; omega

/-- WHAT POINT `t` WRITES BACK is block `t` of the result array `Gm`. -/
theorem flushed_eq (hpay : PayFact) (hpro : ProFact m) (c : Dev nD) (t : Fin cfg0.N) :
    (dats m 0 c).flushed 5 t = ((cfg0.win 5).blk t).view.read (Elt Ideal) (Gm m c) := by
  rw [flushed5]
  unfold out0_5
  rw [View.canon_unit_zero hz]
  simp only [View.ld_unit_zero (S := S512x1024) hz, View.ld_unit_zero (S := S1024x3072) hz, View.ld_unit_zero (S := S1x3072) hz,
    View.ld_unit_zero (S := S1024x1024) hz, View.ld_unit_zero (S := S1x1024) hz]
  funext y
  show k0_pay1 (F := Ideal) (iblk m c 0 t) (iblk m c 1 t) (iblk m c 2 t) (iblk m c 3 t) (iblk m c 4 t) y
    = Gm m c (((cfg0.win 5).blk t).view.emb y)
  unfold Gm
  exact point_eq hpay (iblk m c 0 t) (iblk m c 1 t) (iblk m c 2 t) (iblk m c 3 t) (iblk m c 4 t) y _ _ _ _ _
    (((cfg0.win 5).blk t).view.emb y) (col5 t y) (blk0 m c t y) (blk1 m hpro c t) (blk2 m hpro c t) (blk3 m hpro c t) (blk4 m hpro c t)

/-- An index of the array is in point `t`'s block iff each coordinate is in the block's range on its axis. -/
theorem mem_blk (t : Fin cfg0.N) (i : S65536x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v8).slice (win0_5.rect t)).set ↔ _
  rw [View.set_slice_whole, Rect.mem_set_unit]
  exact Iff.rfl

/-- Every row belongs to a block: row `r` to the block of point `r / 512`; the blocks span all columns. -/
theorem cover (i : S65536x1024.Idx) : ∃ t : Fin cfg0.N, (cfg0.win 5).flush t = true ∧ i ∈ ((cfg0.win 5).blk t).view.set := by
  have hi0 : (i 0).val < 65536 := (i 0).isLt
  have hi1 : (i 1).val < 1024 := (i 1).isLt
  have hlt : (i 0).val / 512 < cfg0.N := by show (i 0).val / 512 < 128; omega
  refine ⟨⟨(i 0).val / 512, hlt⟩, flush0_5 _, ?_⟩
  rw [mem_blk]
  obtain ⟨a0, a1, b0, b1, c0, c1, d0, d1, f0, f1, g0, g1⟩ := idx_facts ⟨(i 0).val / 512, hlt⟩
  have g0' : win0_5.index ⟨(i 0).val / 512, hlt⟩ (0 : Fin 2) = (i 0).val / 512 := g0
  intro a
  match a with
  | ⟨0, _⟩ =>
    show win0_5.index ⟨(i 0).val / 512, hlt⟩ (0 : Fin 2) * 512 ≤ (i 0).val ∧ (i 0).val < win0_5.index ⟨(i 0).val / 512, hlt⟩ (0 : Fin 2) * 512 + 512
    omega
  | ⟨1, _⟩ =>
    show win0_5.index ⟨(i 0).val / 512, hlt⟩ (1 : Fin 2) * 1024 ≤ (i 1).val ∧ (i 1).val < win0_5.index ⟨(i 0).val / 512, hlt⟩ (1 : Fin 2) * 1024 + 1024
    omega

/-- THE ARRAY after the run is `Gm`: every block is `Gm`'s and the blocks cover the array. -/
theorem final (hpay : PayFact) (hpro : ProFact m) (c : Dev nD) : (dats m 0 c).arrAt 5 cfg0.N = Gm m c :=
  (dats m 0 c).arrAt_eq_of_cover 5 (Gm m c) (fun t _ => flushed_eq m hpay hpro c t) cover

/-- The kernel's run: the result array ends at `Gm`, the arguments unchanged. -/
theorem run (hpay : PayFact) (hpro : ProFact m) :
    θ_run defs (onTc (τ := τ) (main (F := Ideal))) ⟨m, fun _ => 0, ρ⟩ fun r => ∀ c : Dev nD,
      r.2.mem ((c : Thread nD τ).loc main_v8) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m hpay hpro c), (h c).2⟩) (run_blocks m ρ)

end Cert.Attn.Blocks

end
-- ==== Proof.RefSide.lean ====
/-
  The reference program, read one stage at a time at explicit coordinates, is the row-wise attention of the
  specification.

  Row `n` of the input is sent through the first affine layer to 3072 columns; seen as sixteen heads of 192
  columns, head `h` owns columns `192 h … 192 h + 191`, the first sixty-four its `q` row, the next its `k` row, the
  last its `v` row. Every later stage is read at the coordinates `(n, h, g)` or `(n, h, d)` of one row: the
  scores of its heads, their row maxima, the shifted exponentials and their sums, the weights, the mixed rows of
  `v`, and last the second affine layer applied to the sixteen mixed rows laid side by side.
-/
import proofs.«124298_j72189810312078_2_alg».proof.Proof.Gen.ReferenceIdeal.Read
import proofs.«124298_j72189810312078_2_alg».proof.Proof.AttnSpec
import Idealize.ShloMosaic.PureOps.Reduce
import Idealize.ShloMosaic.PureOps.Ideal.Laws
import Idealize.ShloMosaic.Lib.ValueIdx

noncomputable section

open scoped BigOperators

namespace Cert.Attn.Ref

open Cert.ReferenceIdeal Cert.ReferenceIdeal.Gen Cert.ReferenceIdeal.Read
open Idealize.ShloMosaic Idealize.ShloMosaic.ValueIdx

variable (x0 : (⟨S65536x1024, .f32⟩ : BufTy).Contents (Elt Ideal))
  (x1 : (⟨S3072x1024, .f32⟩ : BufTy).Contents (Elt Ideal))
  (x2 : (⟨S3072, .f32⟩ : BufTy).Contents (Elt Ideal))
  (x3 : (⟨S1024x1024, .f32⟩ : BufTy).Contents (Elt Ideal))
  (x4 : (⟨S1024, .f32⟩ : BufTy).Contents (Elt Ideal))

/-- Row `n` of the input. -/
abbrev row (n : Fin 65536) : Fin 1024 → EReal := fun k => x0 (ix2 n k)
/-- The first layer's weight rows. -/
abbrev wqkv : Fin 3072 → Fin 1024 → EReal := fun c k => x1 (ix2 c k)
/-- The first layer's bias. -/
abbrev bqkv : Fin 3072 → EReal := fun c => x2 (ix1 c)

/-- The `q`, `k`, `v` tables of row `n`. -/
abbrev Q (n : Fin 65536) : Fin 16 → Fin 64 → EReal := table qcol (row x0 n) (wqkv x1) (bqkv x2)
abbrev K (n : Fin 65536) : Fin 16 → Fin 64 → EReal := table kcol (row x0 n) (wqkv x1) (bqkv x2)
abbrev V (n : Fin 65536) : Fin 16 → Fin 64 → EReal := table vcol (row x0 n) (wqkv x1) (bqkv x2)
/-- The scores of row `n`. -/
abbrev S (n : Fin 65536) : Fin 16 → Fin 16 → EReal := score (Q x0 x1 x2 n) (K x0 x1 x2 n)

/-! ## The first layer -/

/-- Entry `(n, c)` of the first layer: row `n` against weight row `c`, plus the bias. -/
theorem v4_at (n : Fin 65536) (c : Fin 3072) :
    val_main_v4 (F := Ideal) x0 x1 x2 (ix2 n c) = lin (row x0 n) (wqkv x1 c) (bqkv x2 c) := by
  have el : ∀ k : Fin 1024, lidx_main_v1 (ix2 n c) k = ix2 n k := fun k =>
    funext fun a => by match a with | ⟨0, _⟩ => rfl | ⟨1, _⟩ => rfl
  have er : ∀ k : Fin 1024, idx_main_v0 (ridx_main_v1 (ix2 n c) k) = ix2 c k := fun k =>
    funext fun a => by match a with | ⟨0, _⟩ => rfl | ⟨1, _⟩ => rfl
  have eb : idx_main_v2 (idx_main_v3 (ix2 n c)) = ix1 c :=
    funext fun a => by match a with | ⟨0, _⟩ => rfl
  rw [val_main_v4_apply, val_main_v1_apply, val_main_v3_apply, val_main_v2_apply, eb, Ideal.addf_def]
  unfold lin
  refine congrArg (· + x2 (ix1 c)) (Finset.sum_congr rfl fun k _ => ?_)
  rw [val_main_v0_apply, el, er]

/-- Seen as sixteen heads of 192 columns, entry `(n, h, e)` is column `192 h + e` of row `n`. -/
theorem idx5 (n : Fin 65536) (h : Fin 16) (e : Fin 192) (c : Fin 3072) (hc : c.val = 192 * h.val + e.val) :
    idx_main_v5 (ix3 n h e) = ix2 n c :=
  funext fun a => Fin.ext (by
    have hn := n.isLt; have hh := h.isLt; have he := e.isLt
    match a with
    | ⟨0, _⟩ => show ((n.val * 16 + h.val) * 192 + e.val) / 3072 = n.val; omega
    | ⟨1, _⟩ => show ((n.val * 16 + h.val) * 192 + e.val) % 3072 = c.val; omega)

/-- The first slice is the `q` table. -/
theorem v6_at (n : Fin 65536) (h : Fin 16) (d : Fin 64) :
    val_main_v6 (F := Ideal) x0 x1 x2 (ix3 n h d) = Q x0 x1 x2 n h d := by
  have e6 : idx_main_v6 (ix3 n h d) = ix3 n h (⟨d.val, by have := d.isLt; omega⟩ : Fin 192) :=
    funext fun a => by match a with | ⟨0, _⟩ => rfl | ⟨1, _⟩ => rfl | ⟨2, _⟩ => rfl
  rw [val_main_v6_apply, val_main_v5_apply, e6, idx5 n h _ (qcol h d) rfl, v4_at]
  rfl

/-- The second slice is the `k` table. -/
theorem v7_at (n : Fin 65536) (h : Fin 16) (d : Fin 64) :
    val_main_v7 (F := Ideal) x0 x1 x2 (ix3 n h d) = K x0 x1 x2 n h d := by
  have e7 : idx_main_v7 (ix3 n h d) = ix3 n h (⟨64 + d.val, by have := d.isLt; omega⟩ : Fin 192) :=
    funext fun a => by match a with | ⟨0, _⟩ => rfl | ⟨1, _⟩ => rfl | ⟨2, _⟩ => rfl
  rw [val_main_v7_apply, val_main_v5_apply, e7,
    idx5 n h _ (kcol h d) (by show 192 * h.val + 64 + d.val = 192 * h.val + (64 + d.val); omega), v4_at]
  rfl

/-- The third slice is the `v` table. -/
theorem v8_at (n : Fin 65536) (h : Fin 16) (d : Fin 64) :
    val_main_v8 (F := Ideal) x0 x1 x2 (ix3 n h d) = V x0 x1 x2 n h d := by
  have e8 : idx_main_v8 (ix3 n h d) = ix3 n h (⟨128 + d.val, by have := d.isLt; omega⟩ : Fin 192) :=
    funext fun a => by match a with | ⟨0, _⟩ => rfl | ⟨1, _⟩ => rfl | ⟨2, _⟩ => rfl
  rw [val_main_v8_apply, val_main_v5_apply, e8,
    idx5 n h _ (vcol h d) (by show 192 * h.val + 128 + d.val = 192 * h.val + (128 + d.val); omega), v4_at]
  rfl

/-! ## Scores -/

/-- The scaled `q` table. -/
theorem v10_at (n : Fin 65536) (h : Fin 16) (d : Fin 64) :
    val_main_v10 (F := Ideal) x0 x1 x2 (ix3 n h d) = Q x0 x1 x2 n h d * scale := by
  rw [val_main_v10_apply, val_main_v9_apply, val_main_cst_apply, v6_at, Ideal.mulf_def, Ideal.ofBits_def]
  rfl

/-- Entry `(n, h, g)` of the score array is the score of heads `h` and `g` of row `n`. -/
theorem v11_at (n : Fin 65536) (h g : Fin 16) :
    val_main_v11 (F := Ideal) x0 x1 x2 (ix3 n h g) = S x0 x1 x2 n h g := by
  have el : ∀ d : Fin 64, lidx_main_v11 (ix3 n h g) d = ix3 n h d := fun d =>
    funext fun a => by match a with | ⟨0, _⟩ => rfl | ⟨1, _⟩ => rfl | ⟨2, _⟩ => rfl
  have er : ∀ d : Fin 64, ridx_main_v11 (ix3 n h g) d = ix3 n g d := fun d =>
    funext fun a => by match a with | ⟨0, _⟩ => rfl | ⟨1, _⟩ => rfl | ⟨2, _⟩ => rfl
  rw [val_main_v11_apply]
  unfold S score
  refine Finset.sum_congr rfl fun d _ => ?_
  rw [el, er, v10_at, v7_at]

/-! ## The softmax -/

/-- Over `(n, h)`, the index with `g` put back on the last axis is `(n, h, g)`. -/
theorem lift_at (hR : S65536x16x16.Reduces [2] S65536x16) (n : Fin 65536) (h g : Fin 16) :
    hR.lift (ix2 n h) g = ix3 n h g :=
  funext fun c => Fin.ext (by match c with | ⟨0, _⟩ => rfl | ⟨1, _⟩ => rfl | ⟨2, _⟩ => rfl)

/-- A maximum over the last axis of a [65536, 16, 16] array, at `(n, h)`: the fold of `max`, from the initial
    value, over the sixteen entries `(n, h, g)`. -/
theorem maxread (y : S65536x16x16.Idx → Ideal .f32) (b : S_.Idx → Ideal .f32) (n : Fin 65536) (h : Fin 16) :
    Host.reduce (FloatOps.maximumf (F := Ideal) (φ := .f32)) y b reducesTo_S65536x16x16_S65536x16_d2 h_S_ (ix2 n h)
      = (Finset.univ : Finset (Fin 16)).fold max (b (Shape.Idx.first h_S_)) (fun g => y (ix3 n h g)) := by
  have hR : S65536x16x16.Reduces [2] S65536x16 := by decide
  rw [Host.reduce_eq_fold_single (FloatOps.maximumf (F := Ideal) (φ := .f32)) y b reducesTo_S65536x16x16_S65536x16_d2 hR h_S_]
  have hf : (y ∘ hR.lift (ix2 n h)) = fun g : Fin 16 => y (ix3 n h g) := funext fun g => congrArg y (lift_at hR n h g)
  rw [hf]
  rfl

/-- The maximum over the last axis, folded from −∞, is the row maximum of the scores. -/
theorem v12_at (n : Fin 65536) (h : Fin 16) :
    val_main_v12 (F := Ideal) x0 x1 x2 (ix2 n h) = rowMax (S x0 x1 x2 n) h := by
  unfold val_main_v12
  refine (maxread (val_main_v11 (F := Ideal) x0 x1 x2) (val_main_cst_0 (F := Ideal)) n h).trans ?_
  have hf : (fun g : Fin 16 => val_main_v11 (F := Ideal) x0 x1 x2 (ix3 n h g)) = S x0 x1 x2 n h :=
    funext fun g => v11_at x0 x1 x2 n h g
  rw [hf]
  rfl

/-- Taking the maximum with −∞ once more changes nothing. -/
theorem v14_at (n : Fin 65536) (h : Fin 16) :
    val_main_v14 (F := Ideal) x0 x1 x2 (ix2 n h) = rowMax (S x0 x1 x2 n) h := by
  rw [val_main_v14_apply, val_main_v13_apply, val_main_cst_1_apply, v12_at, Ideal.maximumf_def, Ideal.ofBits_def]
  exact max_fold_self negInf (S x0 x1 x2 n h)

/-- The row maximum, spread back over the last axis. -/
theorem v16_at (n : Fin 65536) (h g : Fin 16) :
    val_main_v16 (F := Ideal) x0 x1 x2 (ix3 n h g) = rowMax (S x0 x1 x2 n) h := by
  have e : idx_main_v15 (idx_main_v16 (ix3 n h g)) = ix2 n h :=
    funext fun a => by match a with | ⟨0, _⟩ => rfl | ⟨1, _⟩ => rfl
  rw [val_main_v16_apply, val_main_v15_apply, e, v14_at]

/-- The shifted exponentials. -/
theorem v18_at (n : Fin 65536) (h g : Fin 16) :
    val_main_v18 (F := Ideal) x0 x1 x2 (ix3 n h g) = ex (S x0 x1 x2 n) h g := by
  rw [val_main_v18_apply, val_main_v17_apply, v11_at, v16_at, Ideal.subf_def, Ideal.hostUnary_exp_def]
  rfl

/-- Their sum over the last axis; the sum starts from zero. -/
theorem v19_at (n : Fin 65536) (h : Fin 16) :
    val_main_v19 (F := Ideal) x0 x1 x2 (ix2 n h) = ∑ g : Fin 16, ex (S x0 x1 x2 n) h g := by
  have e : ∀ g : Fin 16, idx_main_v19 (ix2 n h) g = ix3 n h g := fun g =>
    funext fun a => by match a with | ⟨0, _⟩ => rfl | ⟨1, _⟩ => rfl | ⟨2, _⟩ => rfl
  rw [val_main_v19_apply, val_main_cst_2_apply, Ideal.ofBits_def, Ideal.ofBits_zero_f32, zero_add]
  refine Finset.sum_congr rfl fun g _ => ?_
  rw [e, v18_at]

/-- The sum, spread back over the last axis. -/
theorem v21_at (n : Fin 65536) (h g : Fin 16) :
    val_main_v21 (F := Ideal) x0 x1 x2 (ix3 n h g) = ∑ g' : Fin 16, ex (S x0 x1 x2 n) h g' := by
  have e : idx_main_v20 (idx_main_v21 (ix3 n h g)) = ix2 n h :=
    funext fun a => by match a with | ⟨0, _⟩ => rfl | ⟨1, _⟩ => rfl
  rw [val_main_v21_apply, val_main_v20_apply, e, v19_at]

/-- The softmax weights. -/
theorem v22_at (n : Fin 65536) (h g : Fin 16) :
    val_main_v22 (F := Ideal) x0 x1 x2 (ix3 n h g) = prob (S x0 x1 x2 n) h g := by
  rw [val_main_v22_apply, v18_at, v21_at, Ideal.hostDivf_def]
  rfl

/-! ## Mixing the rows of `v`, and the second layer -/

/-- Head `h`'s mixture at lane `d`. -/
theorem v23_at (n : Fin 65536) (h : Fin 16) (d : Fin 64) :
    val_main_v23 (F := Ideal) x0 x1 x2 (ix3 n h d) = attn (Q x0 x1 x2 n) (K x0 x1 x2 n) (V x0 x1 x2 n) h d := by
  have el : ∀ g : Fin 16, lidx_main_v23 (ix3 n h d) g = ix3 n h g := fun g =>
    funext fun a => by match a with | ⟨0, _⟩ => rfl | ⟨1, _⟩ => rfl | ⟨2, _⟩ => rfl
  have er : ∀ g : Fin 16, ridx_main_v23 (ix3 n h d) g = ix3 n g d := fun g =>
    funext fun a => by match a with | ⟨0, _⟩ => rfl | ⟨1, _⟩ => rfl | ⟨2, _⟩ => rfl
  rw [val_main_v23_apply]
  unfold attn
  refine Finset.sum_congr rfl fun g _ => ?_
  rw [el, er, v22_at, v8_at]

/-- The sixteen mixed rows side by side: entry `c` is head `c / 64`, lane `c % 64`. -/
theorem v24_at (n : Fin 65536) (c : Fin 1024) :
    val_main_v24 (F := Ideal) x0 x1 x2 (ix2 n c)
      = attn (Q x0 x1 x2 n) (K x0 x1 x2 n) (V x0 x1 x2 n) (headOf c) (laneOf c) := by
  have e : idx_main_v24 (ix2 n c) = ix3 n (headOf c) (laneOf c) :=
    funext fun a => Fin.ext (by
      have hn := n.isLt; have hc := c.isLt
      match a with
      | ⟨0, _⟩ => show (n.val * 1024 + c.val) / 1024 = n.val; omega
      | ⟨1, _⟩ => show (n.val * 1024 + c.val) / 64 % 16 = c.val / 64; omega
      | ⟨2, _⟩ => show (n.val * 1024 + c.val) % 64 = c.val % 64; omega)
  rw [val_main_v24_apply, e, v23_at]

/-- Entry `(n, j)` of the result: the side-by-side row through the second layer. -/
theorem v29_at (n : Fin 65536) (j : Fin 1024) :
    val_main_v29 (F := Ideal) x0 x1 x2 x3 x4 (ix2 n j)
      = core (Q x0 x1 x2 n) (K x0 x1 x2 n) (V x0 x1 x2 n) (fun c => x3 (ix2 j c)) (x4 (ix1 j)) := by
  have el : ∀ c : Fin 1024, lidx_main_v26 (ix2 n j) c = ix2 n c := fun c =>
    funext fun a => by match a with | ⟨0, _⟩ => rfl | ⟨1, _⟩ => rfl
  have er : ∀ c : Fin 1024, idx_main_v25 (ridx_main_v26 (ix2 n j) c) = ix2 j c := fun c =>
    funext fun a => by match a with | ⟨0, _⟩ => rfl | ⟨1, _⟩ => rfl
  have eb : idx_main_v27 (idx_main_v28 (ix2 n j)) = ix1 j :=
    funext fun a => by match a with | ⟨0, _⟩ => rfl
  rw [val_main_v29_apply, val_main_v26_apply, val_main_v28_apply, val_main_v27_apply, eb, Ideal.addf_def]
  unfold core lin
  refine congrArg (· + x4 (ix1 j)) (Finset.sum_congr rfl fun c _ => ?_)
  rw [val_main_v25_apply, el, er, v24_at]

/-- THE REFERENCE'S RESULT is the specification, index by index. -/
theorem ref_eq :
    Cert.ReferenceIdeal.Read.val_main_v29 (F := Ideal) x0 x1 x2 x3 x4 = Cert.Attn.G x0 x1 x2 x3 x4 := by
  funext i
  obtain ⟨n, j, rfl⟩ : ∃ (n : Fin 65536) (j : Fin 1024), i = ix2 n j := ⟨i 0, i 1, eq_ix2 i⟩
  rw [v29_at]
  rfl

end Cert.Attn.Ref

end
-- ==== Proof.Payload.lean ====
/-
  What the body stores, entry by entry.

  The body turns a block of 512 rows `x` into `x · W + b` (3072 columns), cuts the image into three runs of 1024
  columns and reads each run as sixteen heads of sixty-four lanes (`q`, `k`, `v`), forms the scores
  `(q · 1/8) · kᵀ` head against head within each row, turns every row of scores into weights
  `exp (s − max s) / ∑ exp (s − max s)` (the maximum folded from −∞), mixes the rows of `v` with the weights,
  lays the sixteen mixed rows side by side and sends the 1024 entries through the second layer. On the extended
  reals every one of these steps is exact and a change of format is the identity, so each stage, read at
  coordinates, is the matching piece of the row-wise specification; the last theorem chains them.
-/
import proofs.«124298_j72189810312078_2_alg».proof.Proof.Gen.KernelIdeal.Skeleton
import proofs.«124298_j72189810312078_2_alg».proof.Proof.AttnSpec
import Idealize.ShloMosaic.Lib.Pipeline.Value
import Idealize.ShloMosaic.Lib.ValueIdx
import Idealize.ShloMosaic.PureOps.Ideal.Laws

noncomputable section

open scoped BigOperators

namespace Cert.Attn.Pay

open Idealize.ShloMosaic Idealize.ShloMosaic.ValueIdx Cert.KernelIdeal Cert.KernelIdeal.Gen

/-! ## The body's arithmetic, one stage at a time

Each stage below is the body's own term for one intermediate array, written as a function of the arrays it is
computed from, so that every stage can be read at coordinates by itself. -/

/-- The fused first layer on a block of 512 rows: `x · W + b`, 3072 columns. -/
def proj (x0 : Vec Ideal S512x1024 .f32) (x1 : Vec Ideal S1024x3072 .bf16) (x2 : Vec Ideal S1x3072 .f32) :
    FVec Ideal S512x3072 .f32 :=
  addf (matmul (φ₂ := .bf16) dot_S512x1024_S1024x3072_S512x3072_1_0_0_1_n_n none (truncf .bf16 x0 bitsLt_bf16_f32)
      (shapeCast S1024x3072 x1 shapeCasts_S1024x3072_S1024x3072) (constant (F := Ideal) S512x3072 .f32 0x00000000#32))
    (broadcastTo S512x3072 (shapeCast S1x3072 x2 shapeCasts_S1x3072_S1x3072) broadcasts_S1x3072_S512x3072)

/-- Columns `0 … 1023` of the first layer's image, as sixteen heads of sixty-four lanes. -/
def qT (y : FVec Ideal S512x3072 .f32) : FVec Ideal S512x16x64 .f32 :=
  shapeCast S512x16x64 (extractStridedSlice S512x1024 ![0, 0] y slices_S512x3072_o0_0_S512x1024) shapeCasts_S512x1024_S512x16x64
/-- Columns `1024 … 2047`. -/
def kT (y : FVec Ideal S512x3072 .f32) : FVec Ideal S512x16x64 .f32 :=
  shapeCast S512x16x64 (extractStridedSlice S512x1024 ![0, 1024] y slices_S512x3072_o0_1024_S512x1024) shapeCasts_S512x1024_S512x16x64
/-- Columns `2048 … 3071`. -/
def vT (y : FVec Ideal S512x3072 .f32) : FVec Ideal S512x16x64 .f32 :=
  shapeCast S512x16x64 (extractStridedSlice S512x1024 ![0, 2048] y slices_S512x3072_o0_2048_S512x1024) shapeCasts_S512x1024_S512x16x64

/-- The scores of each row: `(q · 1/8) · kᵀ` over the lanes, head against head. -/
def scores (q k : FVec Ideal S512x16x64 .f32) : FVec Ideal S512x16x16 .f32 :=
  matmul dot_S512x16x64_S512x16x64_S512x16x16_2_2_1_1_0_0 none
    (mulf q (broadcast S512x16x64 (Scalar.ofBits (F := Ideal) .f32 0x3E000000#32))) k (constant (F := Ideal) S512x16x16 .f32 0x00000000#32)

/-- The largest score of each head of each row. -/
def rmax (s : FVec Ideal S512x16x16 .f32) : FVec Ideal S512x16 .f32 :=
  multiReduction (F := Ideal) .maximumf [2] S512x16 s 0xFF800000#32 reduces_S512x16x16_S512x16 (.inl rfl) rfl

/-- A per-head value repeated along the second head axis. -/
def keep (r : FVec Ideal S512x16 .f32) : FVec Ideal S512x16x16 .f32 :=
  broadcastTo S512x16x16 (shapeCast S512x16x1 r shapeCasts_S512x16_S512x16x1) broadcasts_S512x16x1_S512x16x16

/-- The shifted exponentials of the scores. -/
def exps (s : FVec Ideal S512x16x16 .f32) : FVec Ideal S512x16x16 .f32 := exp (subf s (keep (rmax s)))

/-- The sum of each head's exponentials. -/
def rsum (e : FVec Ideal S512x16x16 .f32) : FVec Ideal S512x16 .f32 :=
  multiReduction (F := Ideal) .add [2] S512x16 e 0x00000000#32 reduces_S512x16x16_S512x16 (.inl rfl) rfl

/-- The softmax weights. -/
def wts (s : FVec Ideal S512x16x16 .f32) : FVec Ideal S512x16x16 .f32 := divf (exps s) (keep (rsum (exps s)))

/-- The weights mix the rows of `v`. -/
def mix (w : FVec Ideal S512x16x16 .f32) (v : FVec Ideal S512x16x64 .f32) : FVec Ideal S512x16x64 .f32 :=
  matmul dot_S512x16x16_S512x16x64_S512x16x64_2_1_1_2_0_0 none (truncf .bf16 w bitsLt_bf16_f32) (truncf .bf16 v bitsLt_bf16_f32)
    (constant (F := Ideal) S512x16x64 .f32 0x00000000#32)

/-- Sixteen heads of sixty-four lanes laid side by side. -/
def flat (a : FVec Ideal S512x16x64 .f32) : FVec Ideal S512x1024 .f32 := shapeCast S512x1024 a shapeCasts_S512x16x64_S512x1024

/-- The second layer. -/
def outL (f : FVec Ideal S512x1024 .f32) (x3 : Vec Ideal S1024x1024 .bf16) (x4 : Vec Ideal S1x1024 .f32) : FVec Ideal S512x1024 .f32 :=
  addf (matmul (φ₂ := .bf16) dot_S512x1024_S1024x1024_S512x1024_1_0_0_1_n_n none (truncf .bf16 f bitsLt_bf16_f32)
      (shapeCast S1024x1024 x3 shapeCasts_S1024x1024_S1024x1024) (constant (F := Ideal) S512x1024 .f32 0x00000000#32))
    (broadcastTo S512x1024 (shapeCast S1x1024 x4 shapeCasts_S1x1024_S1x1024) broadcasts_S1x1024_S512x1024)

/-- The body's stored value is the composition of the stages. -/
theorem pay_eq (x0 : Vec Ideal S512x1024 .f32) (x1 : Vec Ideal S1024x3072 .bf16) (x2 : Vec Ideal S1x3072 .f32)
    (x3 : Vec Ideal S1024x1024 .bf16) (x4 : Vec Ideal S1x1024 .f32) :
    k0_pay1 (F := Ideal) x0 x1 x2 x3 x4
      = outL (flat (mix (wts (scores (qT (proj x0 x1 x2)) (kT (proj x0 x1 x2)))) (vT (proj x0 x1 x2)))) x3 x4 := rfl

/-! ## Where each matrix product reads its operands

For each of the body's four products: the coordinates of the two operand entries that meet at output entry `i` and
contraction index `q`. -/

theorem lhs_proj_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem lhs_proj_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem rhs_proj_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
theorem rhs_proj_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl
theorem lhs_scores_0 (i : S512x16x16.Idx) (q : dot_S512x16x64_S512x16x64_S512x16x16_2_2_1_1_0_0.contr.Idx) :
    (dot_S512x16x64_S512x16x64_S512x16x16_2_2_1_1_0_0.lhsIdx i q 0).val = (i 0).val := by
  unfold DotDims.lhsIdx
  rw [dif_pos (show (0 : Fin S512x16x64.rank) ∈ dot_S512x16x64_S512x16x64_S512x16x16_2_2_1_1_0_0.lhsBatch by decide)]
  rfl
theorem lhs_scores_1 (i : S512x16x16.Idx) (q : dot_S512x16x64_S512x16x64_S512x16x16_2_2_1_1_0_0.contr.Idx) :
    (dot_S512x16x64_S512x16x64_S512x16x16_2_2_1_1_0_0.lhsIdx i q 1).val = (i 1).val := by
  unfold DotDims.lhsIdx
  rw [dif_neg (show ¬(1 : Fin S512x16x64.rank) ∈ dot_S512x16x64_S512x16x64_S512x16x16_2_2_1_1_0_0.lhsBatch by decide), dif_pos (show (1 : Fin S512x16x64.rank) ∈ dot_S512x16x64_S512x16x64_S512x16x16_2_2_1_1_0_0.lhsNonContracting by decide)]
  rfl
theorem lhs_scores_2 (i : S512x16x16.Idx) (q : dot_S512x16x64_S512x16x64_S512x16x16_2_2_1_1_0_0.contr.Idx) :
    (dot_S512x16x64_S512x16x64_S512x16x16_2_2_1_1_0_0.lhsIdx i q 2).val = (q ⟨0, by decide⟩).val :=
  dot_S512x16x64_S512x16x64_S512x16x16_2_2_1_1_0_0.lhsIdx_val_of_single rfl i q
theorem rhs_scores_0 (i : S512x16x16.Idx) (q : dot_S512x16x64_S512x16x64_S512x16x16_2_2_1_1_0_0.contr.Idx) :
    (dot_S512x16x64_S512x16x64_S512x16x16_2_2_1_1_0_0.rhsIdx i q 0).val = (i 0).val := by
  unfold DotDims.rhsIdx
  rw [dif_pos (show (0 : Fin S512x16x64.rank) ∈ dot_S512x16x64_S512x16x64_S512x16x16_2_2_1_1_0_0.rhsBatch by decide)]
  rfl
theorem rhs_scores_1 (i : S512x16x16.Idx) (q : dot_S512x16x64_S512x16x64_S512x16x16_2_2_1_1_0_0.contr.Idx) :
    (dot_S512x16x64_S512x16x64_S512x16x16_2_2_1_1_0_0.rhsIdx i q 1).val = (i 2).val := by
  unfold DotDims.rhsIdx
  rw [dif_neg (show ¬(1 : Fin S512x16x64.rank) ∈ dot_S512x16x64_S512x16x64_S512x16x16_2_2_1_1_0_0.rhsBatch by decide), dif_pos (show (1 : Fin S512x16x64.rank) ∈ dot_S512x16x64_S512x16x64_S512x16x16_2_2_1_1_0_0.rhsNonContracting by decide)]
  rfl
theorem rhs_scores_2 (i : S512x16x16.Idx) (q : dot_S512x16x64_S512x16x64_S512x16x16_2_2_1_1_0_0.contr.Idx) :
    (dot_S512x16x64_S512x16x64_S512x16x16_2_2_1_1_0_0.rhsIdx i q 2).val = (q ⟨0, by decide⟩).val :=
  dot_S512x16x64_S512x16x64_S512x16x16_2_2_1_1_0_0.rhsIdx_val_of_single rfl i q
theorem lhs_mix_0 (i : S512x16x64.Idx) (q : dot_S512x16x16_S512x16x64_S512x16x64_2_1_1_2_0_0.contr.Idx) :
    (dot_S512x16x16_S512x16x64_S512x16x64_2_1_1_2_0_0.lhsIdx i q 0).val = (i 0).val := by
  unfold DotDims.lhsIdx
  rw [dif_pos (show (0 : Fin S512x16x16.rank) ∈ dot_S512x16x16_S512x16x64_S512x16x64_2_1_1_2_0_0.lhsBatch by decide)]
  rfl
theorem lhs_mix_1 (i : S512x16x64.Idx) (q : dot_S512x16x16_S512x16x64_S512x16x64_2_1_1_2_0_0.contr.Idx) :
    (dot_S512x16x16_S512x16x64_S512x16x64_2_1_1_2_0_0.lhsIdx i q 1).val = (i 1).val := by
  unfold DotDims.lhsIdx
  rw [dif_neg (show ¬(1 : Fin S512x16x16.rank) ∈ dot_S512x16x16_S512x16x64_S512x16x64_2_1_1_2_0_0.lhsBatch by decide), dif_pos (show (1 : Fin S512x16x16.rank) ∈ dot_S512x16x16_S512x16x64_S512x16x64_2_1_1_2_0_0.lhsNonContracting by decide)]
  rfl
theorem lhs_mix_2 (i : S512x16x64.Idx) (q : dot_S512x16x16_S512x16x64_S512x16x64_2_1_1_2_0_0.contr.Idx) :
    (dot_S512x16x16_S512x16x64_S512x16x64_2_1_1_2_0_0.lhsIdx i q 2).val = (q ⟨0, by decide⟩).val :=
  dot_S512x16x16_S512x16x64_S512x16x64_2_1_1_2_0_0.lhsIdx_val_of_single rfl i q
theorem rhs_mix_0 (i : S512x16x64.Idx) (q : dot_S512x16x16_S512x16x64_S512x16x64_2_1_1_2_0_0.contr.Idx) :
    (dot_S512x16x16_S512x16x64_S512x16x64_2_1_1_2_0_0.rhsIdx i q 0).val = (i 0).val := by
  unfold DotDims.rhsIdx
  rw [dif_pos (show (0 : Fin S512x16x64.rank) ∈ dot_S512x16x16_S512x16x64_S512x16x64_2_1_1_2_0_0.rhsBatch by decide)]
  rfl
theorem rhs_mix_1 (i : S512x16x64.Idx) (q : dot_S512x16x16_S512x16x64_S512x16x64_2_1_1_2_0_0.contr.Idx) :
    (dot_S512x16x16_S512x16x64_S512x16x64_2_1_1_2_0_0.rhsIdx i q 1).val = (q ⟨0, by decide⟩).val :=
  dot_S512x16x16_S512x16x64_S512x16x64_2_1_1_2_0_0.rhsIdx_val_of_single rfl i q
theorem rhs_mix_2 (i : S512x16x64.Idx) (q : dot_S512x16x16_S512x16x64_S512x16x64_2_1_1_2_0_0.contr.Idx) :
    (dot_S512x16x16_S512x16x64_S512x16x64_2_1_1_2_0_0.rhsIdx i q 2).val = (i 2).val := by
  unfold DotDims.rhsIdx
  rw [dif_neg (show ¬(2 : Fin S512x16x64.rank) ∈ dot_S512x16x16_S512x16x64_S512x16x64_2_1_1_2_0_0.rhsBatch by decide), dif_pos (show (2 : Fin S512x16x64.rank) ∈ dot_S512x16x16_S512x16x64_S512x16x64_2_1_1_2_0_0.rhsNonContracting by decide)]
  rfl
theorem lhs_out_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_out_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_out_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_out_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-! ## Each stage read at coordinates -/

/-- An entry of the first layer's image: the row's inner product with the weight column, plus the bias. -/
theorem proj_apply (x0 : Vec Ideal S512x1024 .f32) (x1 : Vec Ideal S1024x3072 .bf16) (x2 : Vec Ideal S1x3072 .f32)
    (p : Fin 512) (c : Fin 3072) :
    proj x0 x1 x2 (ix2 p c) = Attn.lin (fun k => x0 (ix2 p k)) (fun k => x1 (ix2 k c)) (x2 (ix2 (0 : Fin 1) c)) := by
  unfold proj Attn.lin
  refine (addf_apply _ _ _).trans (congrArg₂ (· + ·) ?_ ?_)
  · refine (Ideal.matmul_constant_zero_apply _ none _ _ _).trans ?_
    rw [← Equiv.sum_comp (contrEquiv1 dot_S512x1024_S1024x3072_S512x3072_1_0_0_1_n_n 1024 rfl rfl).symm]
    refine Finset.sum_congr rfl fun k _ => ?_
    have hk := contrEquiv1_symm_val dot_S512x1024_S1024x3072_S512x3072_1_0_0_1_n_n 1024 rfl rfl k
    have el : dot_S512x1024_S1024x3072_S512x3072_1_0_0_1_n_n.lhsIdx (ix2 p c) ((contrEquiv1 dot_S512x1024_S1024x3072_S512x3072_1_0_0_1_n_n 1024 rfl rfl).symm k) = ix2 p k := funext fun a => Fin.ext (by
      match a with
      | ⟨0, _⟩ => exact lhs_proj_0 _ _
      | ⟨1, _⟩ => exact (lhs_proj_1 _ _).trans hk)
    have er : dot_S512x1024_S1024x3072_S512x3072_1_0_0_1_n_n.rhsIdx (ix2 p c) ((contrEquiv1 dot_S512x1024_S1024x3072_S512x3072_1_0_0_1_n_n 1024 rfl rfl).symm k) = ix2 k c := funext fun a => Fin.ext (by
      match a with
      | ⟨0, _⟩ => exact (rhs_proj_0 _ _).trans hk
      | ⟨1, _⟩ => exact rhs_proj_1 _ _)
    rw [el, er, shapeCast_self]
    rfl
  · refine (broadcastTo_apply _ _ (ix2 p c) (ix2 (0 : Fin 1) c) (fun a => match a with
      | ⟨0, _⟩ => rfl
      | ⟨1, _⟩ => rfl)).trans ?_
    rw [shapeCast_self]

/-- The three tables: entry `(h, d)` of a row is column `64 h + d` of the first, second or third thousand-odd columns. -/
theorem qT_apply (y : FVec Ideal S512x3072 .f32) (p : Fin 512) (h : Fin 16) (d : Fin 64) :
    qT y (ix3 p h d) = y (ix2 p (Attn.qcolK h d)) := by
  have hh := h.isLt
  have hd := d.isLt
  unfold qT
  refine (shapeCast_apply _ _ (ix3 p h d) (ix2 p (⟨64 * h.val + d.val, by omega⟩ : Fin 1024)) (by
    rw [Shape.rowMajor_val_two, Shape.rowMajor_val_three]
    show p.val * 1024 + (64 * h.val + d.val) = (p.val * 16 + h.val) * 64 + d.val
    omega)).trans ?_
  exact extractStridedSlice_apply _ _ _ _ (ix2 p (Attn.qcolK h d)) (fun a => match a with
    | ⟨0, _⟩ => by show p.val = 0 + p.val; omega
    | ⟨1, _⟩ => by show 64 * h.val + d.val = 0 + (64 * h.val + d.val); omega)

theorem kT_apply (y : FVec Ideal S512x3072 .f32) (p : Fin 512) (h : Fin 16) (d : Fin 64) :
    kT y (ix3 p h d) = y (ix2 p (Attn.kcolK h d)) := by
  have hh := h.isLt
  have hd := d.isLt
  unfold kT
  refine (shapeCast_apply _ _ (ix3 p h d) (ix2 p (⟨64 * h.val + d.val, by omega⟩ : Fin 1024)) (by
    rw [Shape.rowMajor_val_two, Shape.rowMajor_val_three]
    show p.val * 1024 + (64 * h.val + d.val) = (p.val * 16 + h.val) * 64 + d.val
    omega)).trans ?_
  exact extractStridedSlice_apply _ _ _ _ (ix2 p (Attn.kcolK h d)) (fun a => match a with
    | ⟨0, _⟩ => by show p.val = 0 + p.val; omega
    | ⟨1, _⟩ => by show 1024 + 64 * h.val + d.val = 1024 + (64 * h.val + d.val); omega)

theorem vT_apply (y : FVec Ideal S512x3072 .f32) (p : Fin 512) (h : Fin 16) (d : Fin 64) :
    vT y (ix3 p h d) = y (ix2 p (Attn.vcolK h d)) := by
  have hh := h.isLt
  have hd := d.isLt
  unfold vT
  refine (shapeCast_apply _ _ (ix3 p h d) (ix2 p (⟨64 * h.val + d.val, by omega⟩ : Fin 1024)) (by
    rw [Shape.rowMajor_val_two, Shape.rowMajor_val_three]
    show p.val * 1024 + (64 * h.val + d.val) = (p.val * 16 + h.val) * 64 + d.val
    omega)).trans ?_
  exact extractStridedSlice_apply _ _ _ _ (ix2 p (Attn.vcolK h d)) (fun a => match a with
    | ⟨0, _⟩ => by show p.val = 0 + p.val; omega
    | ⟨1, _⟩ => by show 2048 + 64 * h.val + d.val = 2048 + (64 * h.val + d.val); omega)

/-- A score: the sum over the lanes of the scaled `q` entry times the `k` entry. -/
theorem scores_apply (q k : FVec Ideal S512x16x64 .f32) (p : Fin 512) (h g : Fin 16) :
    scores q k (ix3 p h g) = ∑ d : Fin 64, (q (ix3 p h d) * Attn.scale) * k (ix3 p g d) := by
  unfold scores
  refine (Ideal.matmul_constant_zero_apply _ none _ _ _).trans ?_
  rw [← Equiv.sum_comp (contrEquiv1 dot_S512x16x64_S512x16x64_S512x16x16_2_2_1_1_0_0 64 rfl rfl).symm]
  refine Finset.sum_congr rfl fun d _ => ?_
  have hk := contrEquiv1_symm_val dot_S512x16x64_S512x16x64_S512x16x16_2_2_1_1_0_0 64 rfl rfl d
  have el : dot_S512x16x64_S512x16x64_S512x16x16_2_2_1_1_0_0.lhsIdx (ix3 p h g) ((contrEquiv1 dot_S512x16x64_S512x16x64_S512x16x16_2_2_1_1_0_0 64 rfl rfl).symm d) = ix3 p h d := funext fun a => Fin.ext (by
    match a with
    | ⟨0, _⟩ => exact lhs_scores_0 _ _
    | ⟨1, _⟩ => exact lhs_scores_1 _ _
    | ⟨2, _⟩ => exact (lhs_scores_2 _ _).trans hk)
  have er : dot_S512x16x64_S512x16x64_S512x16x16_2_2_1_1_0_0.rhsIdx (ix3 p h g) ((contrEquiv1 dot_S512x16x64_S512x16x64_S512x16x16_2_2_1_1_0_0 64 rfl rfl).symm d) = ix3 p g d := funext fun a => Fin.ext (by
    match a with
    | ⟨0, _⟩ => exact rhs_scores_0 _ _
    | ⟨1, _⟩ => exact rhs_scores_1 _ _
    | ⟨2, _⟩ => exact (rhs_scores_2 _ _).trans hk)
  rw [el, er]
  rfl

/-- The index a reduction over the last axis reads: the kept coordinates with the reduced one put back. -/
theorem lift_eq (p : Fin 512) (h g : Fin 16) :
    reduces_S512x16x16_S512x16.lift (ix2 p h) g = ix3 p h g := funext fun a => Fin.ext (by
  match a with
  | ⟨0, _⟩ => rfl
  | ⟨1, _⟩ => rfl
  | ⟨2, _⟩ => rfl)

/-- The row maximum of a head: the fold of `max` from −∞ over the second head axis. -/
theorem rmax_apply (s : FVec Ideal S512x16x16 .f32) (p : Fin 512) (h : Fin 16) :
    rmax s (ix2 p h) = Attn.rowMax (fun h g => s (ix3 p h g)) h := by
  unfold rmax Attn.rowMax
  refine (Ideal.multiReduction_maximumf_single s 0xFF800000#32 reduces_S512x16x16_S512x16 (.inl rfl) rfl (ix2 p h)).trans ?_
  show (Finset.univ : Finset (Fin 16)).fold max Attn.negInf (fun g => s (reduces_S512x16x16_S512x16.lift (ix2 p h) g)) = _
  exact congrArg (fun f => (Finset.univ : Finset (Fin 16)).fold max Attn.negInf f)
    (funext fun g => congrArg s (lift_eq p h g))

/-- A per-head value repeated along the second head axis reads back unchanged. -/
theorem keep_apply (r : FVec Ideal S512x16 .f32) (p : Fin 512) (h g : Fin 16) : keep r (ix3 p h g) = r (ix2 p h) := by
  unfold keep
  refine (broadcastTo_apply _ _ (ix3 p h g) (ix3 p h (0 : Fin 1)) (fun a => match a with
    | ⟨0, _⟩ => rfl
    | ⟨1, _⟩ => rfl
    | ⟨2, _⟩ => rfl)).trans ?_
  exact shapeCast_apply _ _ (ix3 p h (0 : Fin 1)) (ix2 p h) (by
    rw [Shape.rowMajor_val_two, Shape.rowMajor_val_three]
    show p.val * 16 + h.val = (p.val * 16 + h.val) * 1 + 0
    omega)

theorem exps_apply (s : FVec Ideal S512x16x16 .f32) (p : Fin 512) (h g : Fin 16) :
    exps s (ix3 p h g) = Attn.ex (fun h g => s (ix3 p h g)) h g := by
  unfold exps Attn.ex
  show Ideal.exp (s (ix3 p h g) - keep (rmax s) (ix3 p h g)) = _
  rw [keep_apply, rmax_apply]

/-- The sum of a head's entries over the second head axis. -/
theorem rsum_apply (e : FVec Ideal S512x16x16 .f32) (p : Fin 512) (h : Fin 16) :
    rsum e (ix2 p h) = ∑ g : Fin 16, e (ix3 p h g) := by
  unfold rsum
  refine (Ideal.multiReduction_add_single e 0x00000000#32 reduces_S512x16x16_S512x16 (.inl rfl) rfl (ix2 p h)).trans ?_
  show ∑ g : Fin 16, e (reduces_S512x16x16_S512x16.lift (ix2 p h) g) = _
  refine Finset.sum_congr rfl fun g _ => ?_
  rw [lift_eq]

theorem wts_apply (s : FVec Ideal S512x16x16 .f32) (p : Fin 512) (h g : Fin 16) :
    wts s (ix3 p h g) = Attn.prob (fun h g => s (ix3 p h g)) h g := by
  unfold wts Attn.prob
  show Ideal.div (exps s (ix3 p h g)) (keep (rsum (exps s)) (ix3 p h g)) = _
  rw [keep_apply, rsum_apply, exps_apply]
  exact congrArg _ (Finset.sum_congr rfl fun g' _ => exps_apply s p h g')

/-- A mixed entry: the sum over the heads of the weight times the `v` entry. -/
theorem mix_apply (w : FVec Ideal S512x16x16 .f32) (v : FVec Ideal S512x16x64 .f32) (p : Fin 512) (h : Fin 16) (d : Fin 64) :
    mix w v (ix3 p h d) = ∑ g : Fin 16, w (ix3 p h g) * v (ix3 p g d) := by
  unfold mix
  refine (Ideal.matmul_constant_zero_apply _ none _ _ _).trans ?_
  rw [← Equiv.sum_comp (contrEquiv1 dot_S512x16x16_S512x16x64_S512x16x64_2_1_1_2_0_0 16 rfl rfl).symm]
  refine Finset.sum_congr rfl fun g _ => ?_
  have hk := contrEquiv1_symm_val dot_S512x16x16_S512x16x64_S512x16x64_2_1_1_2_0_0 16 rfl rfl g
  have el : dot_S512x16x16_S512x16x64_S512x16x64_2_1_1_2_0_0.lhsIdx (ix3 p h d) ((contrEquiv1 dot_S512x16x16_S512x16x64_S512x16x64_2_1_1_2_0_0 16 rfl rfl).symm g) = ix3 p h g := funext fun a => Fin.ext (by
    match a with
    | ⟨0, _⟩ => exact lhs_mix_0 _ _
    | ⟨1, _⟩ => exact lhs_mix_1 _ _
    | ⟨2, _⟩ => exact (lhs_mix_2 _ _).trans hk)
  have er : dot_S512x16x16_S512x16x64_S512x16x64_2_1_1_2_0_0.rhsIdx (ix3 p h d) ((contrEquiv1 dot_S512x16x16_S512x16x64_S512x16x64_2_1_1_2_0_0 16 rfl rfl).symm g) = ix3 p g d := funext fun a => Fin.ext (by
    match a with
    | ⟨0, _⟩ => exact rhs_mix_0 _ _
    | ⟨1, _⟩ => exact (rhs_mix_1 _ _).trans hk
    | ⟨2, _⟩ => exact rhs_mix_2 _ _)
  rw [el, er]
  rfl

/-- Entry `c` of the side-by-side row is lane `c % 64` of head `c / 64`. -/
theorem flat_apply (a : FVec Ideal S512x16x64 .f32) (p : Fin 512) (c : Fin 1024) :
    flat a (ix2 p c) = a (ix3 p (Attn.headOf c) (Attn.laneOf c)) := by
  have hc := c.isLt
  unfold flat
  exact shapeCast_apply _ _ (ix2 p c) (ix3 p (Attn.headOf c) (Attn.laneOf c)) (by
    rw [Shape.rowMajor_val_three, Shape.rowMajor_val_two]
    show (p.val * 16 + c.val / 64) * 64 + c.val % 64 = p.val * 1024 + c.val
    omega)

/-- An entry of the second layer. -/
theorem outL_apply (f : FVec Ideal S512x1024 .f32) (x3 : Vec Ideal S1024x1024 .bf16) (x4 : Vec Ideal S1x1024 .f32)
    (p : Fin 512) (j : Fin 1024) :
    outL f x3 x4 (ix2 p j) = Attn.lin (fun c => f (ix2 p c)) (fun c => x3 (ix2 c j)) (x4 (ix2 (0 : Fin 1) j)) := by
  unfold outL Attn.lin
  refine (addf_apply _ _ _).trans (congrArg₂ (· + ·) ?_ ?_)
  · refine (Ideal.matmul_constant_zero_apply _ none _ _ _).trans ?_
    rw [← Equiv.sum_comp (contrEquiv1 dot_S512x1024_S1024x1024_S512x1024_1_0_0_1_n_n 1024 rfl rfl).symm]
    refine Finset.sum_congr rfl fun k _ => ?_
    have hk := contrEquiv1_symm_val dot_S512x1024_S1024x1024_S512x1024_1_0_0_1_n_n 1024 rfl rfl k
    have el : dot_S512x1024_S1024x1024_S512x1024_1_0_0_1_n_n.lhsIdx (ix2 p j) ((contrEquiv1 dot_S512x1024_S1024x1024_S512x1024_1_0_0_1_n_n 1024 rfl rfl).symm k) = ix2 p k := funext fun a => Fin.ext (by
      match a with
      | ⟨0, _⟩ => exact lhs_out_0 _ _
      | ⟨1, _⟩ => exact (lhs_out_1 _ _).trans hk)
    have er : dot_S512x1024_S1024x1024_S512x1024_1_0_0_1_n_n.rhsIdx (ix2 p j) ((contrEquiv1 dot_S512x1024_S1024x1024_S512x1024_1_0_0_1_n_n 1024 rfl rfl).symm k) = ix2 k j := funext fun a => Fin.ext (by
      match a with
      | ⟨0, _⟩ => exact (rhs_out_0 _ _).trans hk
      | ⟨1, _⟩ => exact rhs_out_1 _ _)
    rw [el, er, shapeCast_self]
    rfl
  · refine (broadcastTo_apply _ _ (ix2 p j) (ix2 (0 : Fin 1) j) (fun a => match a with
      | ⟨0, _⟩ => rfl
      | ⟨1, _⟩ => rfl)).trans ?_
    rw [shapeCast_self]

/-! ## The stored value at an entry -/

/-- Entry `(p, j)` of what the body stores is the specification's result for row `p` of the row block, read through
    the weight blocks as they are handed over: the first layer's weights with the contraction index first, the
    second layer's likewise. -/
theorem pay_apply (x0 : Vec Ideal S512x1024 .f32) (x1 : Vec Ideal S1024x3072 .bf16) (x2 : Vec Ideal S1x3072 .f32)
    (x3 : Vec Ideal S1024x1024 .bf16) (x4 : Vec Ideal S1x1024 .f32) (p : Fin 512) (j : Fin 1024) :
    Cert.KernelIdeal.Gen.k0_pay1 (F := Ideal) x0 x1 x2 x3 x4 (ix2 p j)
      = Cert.Attn.core
          (Cert.Attn.table Cert.Attn.qcolK (fun k => x0 (ix2 p k)) (fun c k => x1 (ix2 k c)) (fun c => x2 (ix2 (0 : Fin 1) c)))
          (Cert.Attn.table Cert.Attn.kcolK (fun k => x0 (ix2 p k)) (fun c k => x1 (ix2 k c)) (fun c => x2 (ix2 (0 : Fin 1) c)))
          (Cert.Attn.table Cert.Attn.vcolK (fun k => x0 (ix2 p k)) (fun c k => x1 (ix2 k c)) (fun c => x2 (ix2 (0 : Fin 1) c)))
          (fun c => x3 (ix2 c j)) (x4 (ix2 (0 : Fin 1) j)) := by
  have hS : (fun h g => scores (qT (proj x0 x1 x2)) (kT (proj x0 x1 x2)) (ix3 p h g))
      = Attn.score
          (Attn.table Attn.qcolK (fun k => x0 (ix2 p k)) (fun c k => x1 (ix2 k c)) (fun c => x2 (ix2 (0 : Fin 1) c)))
          (Attn.table Attn.kcolK (fun k => x0 (ix2 p k)) (fun c k => x1 (ix2 k c)) (fun c => x2 (ix2 (0 : Fin 1) c))) := by
    funext h g
    rw [scores_apply]
    unfold Attn.score Attn.table
    refine Finset.sum_congr rfl fun d _ => ?_
    rw [qT_apply, kT_apply, proj_apply, proj_apply]
  rw [pay_eq, outL_apply]
  unfold Attn.core
  refine congrArg (fun f => Attn.lin f (fun c => x3 (ix2 c j)) (x4 (ix2 (0 : Fin 1) j))) (funext fun c => ?_)
  rw [flat_apply, mix_apply]
  unfold Attn.attn
  refine Finset.sum_congr rfl fun g _ => ?_
  rw [wts_apply, hS, vT_apply, proj_apply]
  rfl

end Cert.Attn.Pay

end
-- ==== Proof.LibRowGather.lean ====
/-
  Taking rows of a matrix by an index column, read at an entry.

  `x[idx]` for an [N, C] matrix `x` and R start indices (an [R, 1] column) is the gather whose offset axis is the
  columns, whose collapsed axis is the rows, whose start index map names the rows, and whose slices are one row wide:
  entry (r, k) of the result is `x` at row `clampRow idx r` — the r-th start index read as a signed integer and
  clamped into [0, N − 1] — and column k. Generic in N, C, R, the index width and the element type.
-/
import Idealize.ShloMosaic.PureOps.ShapeOps
import Idealize.ShloMosaic.Lib.ValueIdx

noncomputable section

namespace Cert.Lib.RowGather

open Idealize.ShloMosaic Idealize.ShloMosaic.ValueIdx

variable {α : Type}

/-- The dimension numbers of "take rows": operand [N, C], start indices [R, 1], result [R, C]. -/
abbrev rowsDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row that result row `r` reads: its start index, read signed, clamped into [0, N − 1]. -/
def clampRow (N : Nat) {R w : Nat} (idx : IVec ⟨2, ![R, 1]⟩ w) (r : Fin R) : Nat :=
  min (idx (ix2 r (0 : Fin 1))).toInt.toNat (N - 1)

theorem clampRow_lt {N R w : Nat} (hN : 0 < N) (idx : IVec ⟨2, ![R, 1]⟩ w) (r : Fin R) : clampRow N idx r < N := by
  unfold clampRow; omega

/-- THE ROW GATHER READ AT (r, k): the operand at the clamped start row and column k. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowsDims N C R wf) x idx (ix2 r k) = x (ix2 ⟨clampRow N idx r, clampRow_lt hN idx r⟩ k) := by
  unfold Host.gather
  congr 1
  funext a
  refine Fin.ext ?_
  match a with
  | ⟨0, _⟩ =>
    show (rowsDims N C R wf).start (ix2 r k) idx 0 + (rowsDims N C R wf).batchCoord (ix2 r k) 0
      + (rowsDims N C R wf).offCoord (ix2 r k) 0 = clampRow N idx r
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r k) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r k) idx 1 + (rowsDims N C R wf).batchCoord (ix2 r k) 1
      + (rowsDims N C R wf).offCoord (ix2 r k) 1 = k.val
    rw [GatherDims.batchCoord_eq_zero _ _ _ List.not_mem_nil]
    unfold GatherDims.start
    rw [dif_neg (show (1 : Fin 2) ∉ (rowsDims N C R wf).startIndexMap from
      fun h => Nat.one_ne_zero (congrArg Fin.val (List.mem_singleton.mp h)))]
    simp only [Nat.add_zero, Nat.zero_add]
    unfold GatherDims.offCoord
    rw [dif_pos (show (1 : Fin 2) ∈ (rowsDims N C R wf).sKept from
      (GatherDims.mem_sKept _ _).mpr ⟨fun h => Nat.one_ne_zero (congrArg Fin.val (List.mem_singleton.mp h)), List.not_mem_nil⟩)]
    rfl

end Cert.Lib.RowGather

end
-- ==== Proof.Prologue.lean ====
/-
  What the program's one region finds in the four buffers the host operations before it write.

  The first layer's weight matrix [3072, 1024] and bias [3072] are re-ordered by a literal table of 3072 column
  numbers — `take` along the leading axis: negative indices shifted by 3072, entries whose index is out of
  [0, 3071] masked by a NaN, the rest gathered at the index clamped into that range — and the re-ordered matrix is
  transposed to [1024, 3072]; the second layer's weight matrix is transposed; both biases become one-row matrices.
  The table is the closed form `perm`: every entry is in range, so the shift, the mask and the clamp do nothing,
  and entry (k, cc) of the first buffer is the weight's entry (perm cc, k), entry (0, cc) of the second the bias's
  entry perm cc. A change of float format is the identity on the extended reals.
-/
import proofs.«124298_j72189810312078_2_alg».proof.Proof.Gen.KernelIdeal.Frame
import proofs.«124298_j72189810312078_2_alg».proof.Proof.AttnSpec
import proofs.«124298_j72189810312078_2_alg».proof.Proof.LibRowGather
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Reduce

set_option maxRecDepth 16384

noncomputable section

namespace Cert.Attn.Pro

open Idealize.ShloMosaic Idealize.ShloMosaic.ValueIdx Idealize.ShloMosaic.TcCoe
open Idealize.SL.Sem
open Idealize.ShloMosaic.StableHlo
open Cert.KernelIdeal Cert.KernelIdeal.Gen

/-! ## The table of columns

The literal table the first layer's columns are taken by is the closed form `perm`: entry `i` is the word of
`192·head + 64·part + lane` for `i = 1024·part + 64·head + lane`. -/

theorem lit0_eq : ∀ i : Fin 3072, lit0 i = BitVec.ofNat 32 (Cert.Attn.perm i).val := by decide +kernel

/-- A word below 3072 is not negative, is at most 3071, and reads back as itself when clamped into [0, 3071]. -/
theorem word_facts : ∀ n : Fin 3072,
    IntOp.cmpi .slt (BitVec.ofNat 32 n.val) 0#32 = 0#1 ∧
    IntOp.cmpi .sge (BitVec.ofNat 32 n.val) 0#32 = 1#1 ∧
    IntOp.cmpi .sle (BitVec.ofNat 32 n.val) 3071#32 = 1#1 ∧
    min (BitVec.ofNat 32 n.val).toInt.toNat (3072 - 1) = n.val := by decide +kernel

/-! ## Taking by an index vector whose entries are in range

`take` first replaces a negative index `t` by `t + 3072`, then masks the entries whose index is outside
[0, 3071] by a NaN, and gathers at the index clamped into that range. For a table of indices that are all in range
each of the three steps is the identity. -/

/-- The index vector after the negative-index fix-up. -/
def fixIdx (t : IVec S3072 32) : IVec S3072 32 :=
  select (cmpi .slt t (broadcastInDim S3072 ![] bcast_S_S3072 (constantI S_ 32 0#32)))
    (addi t (broadcastInDim S3072 ![] bcast_S_S3072 (constantI S_ 32 3072#32))) t

/-- The fixed-up indices as a column of start indices. -/
def idxCol (t : IVec S3072 32) : IVec S3072x1 32 := broadcastInDim S3072x1 ![0] bcast_S3072_S3072x1_0 (fixIdx t)

/-- The bounds mask of a column of start indices: 0 ≤ index ≤ 3071, reduced over the unit axis. -/
def inBounds (u : IVec S3072x1 32) : IVec S3072 1 :=
  Host.reduce IntOp.andi
    (andi (cmpi .sge u (broadcastInDim S3072x1 ![] bcast_S_S3072x1 (constantI S_ 32 0#32)))
      (cmpi .sle u (broadcastInDim S3072x1 ![0, 1] bcast_S1x1_S3072x1_0_1
        (broadcastInDim S1x1 ![1] bcast_S1_S1x1_1 (constantI S1 32 3071#32)))))
    (constantI S_ 1 1#1) reducesTo_S3072x1_S3072_d1 h_S_

variable (t : IVec S3072 32) (p : Fin 3072 → Fin 3072)

theorem fixIdx_apply (ht : ∀ i : Fin 3072, t (ix1 i) = BitVec.ofNat 32 (p i).val) (i : Fin 3072) :
    fixIdx t (ix1 i) = BitVec.ofNat 32 (p i).val := by
  show Scalar.select (IntOp.cmpi .slt (t (ix1 i)) 0#32) (IntOp.addi (t (ix1 i)) 3072#32) (t (ix1 i)) = _
  rw [ht i, (word_facts (p i)).1, select_zero]

theorem idxCol_apply (ht : ∀ i : Fin 3072, t (ix1 i) = BitVec.ofNat 32 (p i).val) (i : Fin 3072) :
    idxCol t (ix2 i (0 : Fin 1)) = BitVec.ofNat 32 (p i).val := by
  unfold idxCol
  rw [broadcastInDim_apply _ _ _ _ (ix1 i) (fun a => by match a with | ⟨0, _⟩ => rfl)]
  exact fixIdx_apply t p ht i

/-- Folding `and` from 1 over 1s stays 1. -/
theorem foldl_andi_one {ι : Type} (l : List ι) : l.foldl (fun r (_ : ι) => IntOp.andi r 1#1) 1#1 = 1#1 := by
  induction l with
  | nil => rfl
  | cons a l ih => exact ih

theorem inBounds_idxCol (ht : ∀ i : Fin 3072, t (ix1 i) = BitVec.ofNat 32 (p i).val) :
    inBounds (idxCol t) = fun _ => 1#1 := by
  have hm : (andi (cmpi .sge (idxCol t) (broadcastInDim S3072x1 ![] bcast_S_S3072x1 (constantI S_ 32 0#32)))
      (cmpi .sle (idxCol t) (broadcastInDim S3072x1 ![0, 1] bcast_S1x1_S3072x1_0_1
        (broadcastInDim S1x1 ![1] bcast_S1_S1x1_1 (constantI S1 32 3071#32))))) = fun _ => 1#1 := by
    funext j
    obtain ⟨i, z, rfl⟩ : ∃ (i : Fin 3072) (z : Fin 1), j = ix2 i z := ⟨j 0, j 1, eq_ix2 j⟩
    obtain rfl : z = 0 := Subsingleton.elim _ _
    show IntOp.andi (IntOp.cmpi .sge (idxCol t (ix2 i (0 : Fin 1))) 0#32) (IntOp.cmpi .sle (idxCol t (ix2 i (0 : Fin 1))) 3071#32) = 1#1
    rw [idxCol_apply t p ht i, (word_facts (p i)).2.1, (word_facts (p i)).2.2.1]
    rfl
  unfold inBounds
  rw [hm]
  funext j
  rw [Host.reduce_eq_foldl]
  exact foldl_andi_one _

/-! ## The two gathers read at an entry -/

/-- The dimension numbers of taking entries of a vector [N] by a column [R, 1] of start indices. -/
abbrev entryDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry `r` of such a gather is the operand at the `r`-th start index, read signed and clamped into [0, N − 1]. -/
theorem gather_entries_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (entryDims N R wf) x idx (ix1 r)
      = x (ix1 ⟨min (idx (ix2 r (0 : Fin 1))).toInt.toNat (N - 1), by omega⟩) := by
  unfold Host.gather
  refine congrArg x ?_
  funext a
  obtain rfl : a = 0 := Subsingleton.elim _ _
  refine Fin.ext ?_
  show (entryDims N R wf).start (ix1 r) idx 0 + (entryDims N R wf).batchCoord (ix1 r) 0
    + (entryDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N R wf).startIndexMap from List.mem_singleton.mpr rfl)]
  have hsi : (entryDims N R wf).siIdx (ix1 r) ⟨List.idxOf (0 : Fin 1) (entryDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- `take` of a vector: the gathered entries where the index is in bounds, a NaN elsewhere. -/
def take1 (x : FVec Ideal S3072 .f32) (t : IVec S3072 32) : FVec Ideal S3072 .f32 :=
  select (inBounds (idxCol t)) (Host.gather gather_S3072_S3072x1_S3072_n_0_n_n_0_1_1 x (idxCol t))
    (broadcastInDim S3072 ![] bcast_S_S3072 (constant (F := Ideal) S_ .f32 0x7FC00000#32))

/-- `take` of the rows of a matrix: the gathered rows where the index is in bounds, NaNs elsewhere. -/
def take2 (x : FVec Ideal S3072x1024 .f32) (t : IVec S3072 32) : FVec Ideal S3072x1024 .f32 :=
  select (broadcastInDim S3072x1024 ![0] bcast_S3072_S3072x1024_0 (inBounds (idxCol t)))
    (Host.gather gather_S3072x1024_S3072x1_S3072x1024_1_0_n_n_0_1_11024 x (idxCol t))
    (broadcastInDim S3072x1024 ![] bcast_S_S3072x1024 (constant (F := Ideal) S_ .f32 0x7FC00000#32))

theorem take1_apply (x : FVec Ideal S3072 .f32) (ht : ∀ i : Fin 3072, t (ix1 i) = BitVec.ofNat 32 (p i).val) (i : Fin 3072) :
    take1 x t (ix1 i) = x (ix1 (p i)) := by
  unfold take1
  rw [select_apply, inBounds_idxCol t p ht, select_one]
  refine (gather_entries_apply (N := 3072) (R := 3072) (by decide) gather_S3072_S3072x1_S3072_n_0_n_n_0_1_1_wf x (idxCol t) i).trans ?_
  refine congrArg (fun r => x (ix1 r)) (Fin.ext ?_)
  show min (idxCol t (ix2 i (0 : Fin 1))).toInt.toNat (3072 - 1) = (p i).val
  rw [idxCol_apply t p ht i]
  exact (word_facts (p i)).2.2.2

theorem take2_apply (x : FVec Ideal S3072x1024 .f32) (ht : ∀ i : Fin 3072, t (ix1 i) = BitVec.ofNat 32 (p i).val) (i : Fin 3072)
    (k : Fin 1024) : take2 x t (ix2 i k) = x (ix2 (p i) k) := by
  unfold take2
  rw [select_apply, inBounds_idxCol t p ht]
  show Scalar.select 1#1 _ _ = _
  rw [select_one]
  refine (Cert.Lib.RowGather.gather_rows_apply (N := 3072) (C := 1024) (R := 3072) (by decide)
    gather_S3072x1024_S3072x1_S3072x1024_1_0_n_n_0_1_11024_wf x (idxCol t) i k).trans ?_
  refine congrArg (fun r => x (ix2 r k)) (Fin.ext ?_)
  show min (idxCol t (ix2 i (0 : Fin 1))).toInt.toNat (3072 - 1) = (p i).val
  rw [idxCol_apply t p ht i]
  exact (word_facts (p i)).2.2.2

/-- The literal table as an index vector, and its entries. -/
def tbl : IVec S3072 32 := fun i => lit0 (S3072.rowMajor i)

theorem tbl_apply (i : Fin 3072) : tbl (ix1 i) = BitVec.ofNat 32 (Cert.Attn.perm i).val := by
  have h : S3072.rowMajor (ix1 i) = i := Fin.ext (Shape.rowMajor_val_one _)
  show lit0 (S3072.rowMajor (ix1 i)) = _
  rw [h]
  exact lit0_eq i

/-! ## What the region finds

Before its one region the program re-orders the first layer's weight rows and bias entries by the table (`take`),
transposes both weight matrices, and lays the two biases out as one-row matrices. Each of the four buffers the region
reads, at an entry, is therefore an entry of an argument array. -/

variable (m : (ℓ : Loc nD τ sig) → Buf (Elt Ideal) ℓ) (c : Dev nD)

/-- The first layer's weights as the region finds them: entry (k, cc) is the argument's entry (perm cc, k). -/
theorem V_wqkv (k : Fin 1024) (cc : Fin 3072) : (V m c main_v3 : S1024x3072.Idx → EReal) (ix2 k cc)
    = (m ((c : Thread nD τ).loc main_arg1) : S3072x1024.Idx → EReal) (ix2 (Cert.Attn.perm cc) k) := by
  have e : (V m c main_v3 : S1024x3072.Idx → EReal)
      = truncf (F := Ideal) .bf16 (transpose S1024x3072 [1, 0]
          (take2 (m ((c : Thread nD τ).loc main_arg1) : S3072x1024.Idx → EReal) tbl)
          transposes_S3072x1024_S1024x3072_1_0) bitsLt_bf16_f32 := by
    dsimp only [Gen.V]
    simp only [Gen.hostOps0, Gen.hostOps0_1, Gen.hostOps0_2, Gen.hostOps0_3, List.flatten_cons, List.flatten_nil,
      List.append_nil, List.cons_append, List.nil_append]
    after_results_simp
    rfl
  rw [e, truncf_apply]
  refine (transpose_apply _ _ _ _ (ix2 cc k) (fun b => by match b with | ⟨0, _⟩ => rfl | ⟨1, _⟩ => rfl)).trans ?_
  exact take2_apply tbl Cert.Attn.perm _ tbl_apply cc k

/-- The first layer's bias as the region finds it: entry (0, cc) is the argument's entry perm cc. -/
theorem V_bqkv (cc : Fin 3072) : (V m c main_v6 : S1x3072.Idx → EReal) (ix2 (0 : Fin 1) cc)
    = (m ((c : Thread nD τ).loc main_arg2) : S3072.Idx → EReal) (ix1 (Cert.Attn.perm cc)) := by
  have e : (V m c main_v6 : S1x3072.Idx → EReal)
      = shapeCast S1x3072 (take1 (m ((c : Thread nD τ).loc main_arg2) : S3072.Idx → EReal) tbl)
          shapeCasts_S3072_S1x3072 := by
    dsimp only [Gen.V]
    simp only [Gen.hostOps0, Gen.hostOps0_1, Gen.hostOps0_2, Gen.hostOps0_3, List.flatten_cons, List.flatten_nil,
      List.append_nil, List.cons_append, List.nil_append]
    after_results_simp
    rfl
  rw [e]
  refine (shapeCast_apply _ _ _ (ix1 cc) ?_).trans (take1_apply tbl Cert.Attn.perm _ tbl_apply cc)
  rw [Shape.rowMajor_val_one, Shape.rowMajor_val_two]
  show cc.val = 0 * 3072 + cc.val
  omega

/-- The second layer's weights as the region finds them: the argument transposed. -/
theorem V_wout (k j : Fin 1024) : (V m c main_v5 : S1024x1024.Idx → EReal) (ix2 k j)
    = (m ((c : Thread nD τ).loc main_arg3) : S1024x1024.Idx → EReal) (ix2 j k) := by
  have e : (V m c main_v5 : S1024x1024.Idx → EReal)
      = truncf (F := Ideal) .bf16 (transpose S1024x1024 [1, 0]
          (m ((c : Thread nD τ).loc main_arg3) : S1024x1024.Idx → EReal) transposes_S1024x1024_S1024x1024_1_0)
          bitsLt_bf16_f32 := by
    dsimp only [Gen.V]
    simp only [Gen.hostOps0, Gen.hostOps0_1, Gen.hostOps0_2, Gen.hostOps0_3, List.flatten_cons, List.flatten_nil,
      List.append_nil, List.cons_append, List.nil_append]
    after_results_simp
  rw [e, truncf_apply]
  exact transpose_apply _ _ _ _ (ix2 j k) (fun b => by match b with | ⟨0, _⟩ => rfl | ⟨1, _⟩ => rfl)

/-- The second layer's bias as the region finds it: the argument as one row. -/
theorem V_bout (j : Fin 1024) : (V m c main_v7 : S1x1024.Idx → EReal) (ix2 (0 : Fin 1) j)
    = (m ((c : Thread nD τ).loc main_arg4) : S1024.Idx → EReal) (ix1 j) := by
  have e : (V m c main_v7 : S1x1024.Idx → EReal)
      = shapeCast S1x1024 (m ((c : Thread nD τ).loc main_arg4) : S1024.Idx → EReal) shapeCasts_S1024_S1x1024 := by
    dsimp only [Gen.V]
    simp only [Gen.hostOps0, Gen.hostOps0_1, Gen.hostOps0_2, Gen.hostOps0_3, List.flatten_cons, List.flatten_nil,
      List.append_nil, List.cons_append, List.nil_append]
    after_results_simp
    rfl
  rw [e]
  refine shapeCast_apply _ _ _ (ix1 j) ?_
  rw [Shape.rowMajor_val_one, Shape.rowMajor_val_two]
  show j.val = 0 * 1024 + j.val
  omega

end Cert.Attn.Pro

end
-- ==== Proof.lean ====
/-
  Multi-head attention over the HEAD axis of each row, as one fused kernel against its plain reference, on the
  extended reals.

  Both programs send a row `x` of 1024 entries through an affine layer to sixteen heads' `q`, `k`, `v` rows of
  sixty-four lanes, score head against head as `(q · 1/8) · kᵀ` (the scale 64^(-1/2) is the dyadic 1/8, the same word
  on both sides), turn each row of scores into weights `exp (s − max s) / ∑ exp (s − max s)`, mix the rows of `v`,
  and send the sixteen mixed rows, side by side, through a second affine layer (Proof/AttnSpec.lean: `G`).
  They differ in arrangement only: the kernel works on blocks of 512 rows (Proof/Blocks.lean), is handed the first
  layer's weights transposed and with their 3072 columns re-ordered by a literal table — all of `q`, then all of `k`,
  then all of `v` — which the re-ordering of the bias matches (Proof/Prologue.lean), and folds its maximum from −∞
  once where the reference takes one more maximum with −∞. No law used needs finiteness — sums are only re-indexed,
  never distributed over — so the precondition is never opened.
  The reference's stages are read in Proof/RefSide.lean, the kernel body's in Proof/Payload.lean.
-/
import proofs.«124298_j72189810312078_2_alg».proof.Defs
import proofs.«124298_j72189810312078_2_alg».proof.Proof.Gen.Kernel
import proofs.«124298_j72189810312078_2_alg».proof.Proof.Gen.Kernel.Skeleton
import proofs.«124298_j72189810312078_2_alg».proof.Proof.Gen.Kernel.Launch
import proofs.«124298_j72189810312078_2_alg».proof.Proof.Gen.Kernel.Points
import proofs.«124298_j72189810312078_2_alg».proof.Proof.Gen.Kernel.Frame
import proofs.«124298_j72189810312078_2_alg».proof.Proof.Gen.KernelIdeal
import proofs.«124298_j72189810312078_2_alg».proof.Proof.Gen.KernelIdeal.Skeleton
import proofs.«124298_j72189810312078_2_alg».proof.Proof.Gen.KernelIdeal.Launch
import proofs.«124298_j72189810312078_2_alg».proof.Proof.Gen.KernelIdeal.Points
import proofs.«124298_j72189810312078_2_alg».proof.Proof.Gen.KernelIdeal.Frame
import proofs.«124298_j72189810312078_2_alg».proof.Proof.Gen.ReferenceIdeal
import proofs.«124298_j72189810312078_2_alg».proof.Proof.Gen.Pre_finite_inputs
import proofs.«124298_j72189810312078_2_alg».proof.Proof.Gen.KernelIdeal.Value
import proofs.«124298_j72189810312078_2_alg».proof.Proof.Gen.ReferenceIdeal.Run
import proofs.«124298_j72189810312078_2_alg».proof.Proof.Gen.ReferenceIdeal.Read
import proofs.«124298_j72189810312078_2_alg».proof.Proof.AttnSpec
import proofs.«124298_j72189810312078_2_alg».proof.Proof.Blocks
import proofs.«124298_j72189810312078_2_alg».proof.Proof.RefSide
import proofs.«124298_j72189810312078_2_alg».proof.Proof.Payload
import proofs.«124298_j72189810312078_2_alg».proof.Proof.Prologue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- What the region finds in its four prepared operands, on every core. -/
theorem prologue (m : (ℓ : Loc Cert.KernelIdeal.nD Cert.KernelIdeal.τ Cert.KernelIdeal.sig) → Buf (Elt Ideal) ℓ) :
    Cert.Attn.Blocks.ProFact m := fun c =>
  ⟨Cert.Attn.Pro.V_wqkv m c, Cert.Attn.Pro.V_bqkv m c, Cert.Attn.Pro.V_wout m c, Cert.Attn.Pro.V_bout m c⟩

/-- From arguments that agree, the kernel's result array ends at `G` of them block by block, and the reference's
    last stage is `G` of them: one array. -/
theorem algebraic : Cert.algebraic_KernelIdeal_ReferenceIdeal := by
  intro m ρ m' ρ' _ hagree
  refine ⟨fun c => Cert.Attn.Blocks.Gm m c, Cert.Attn.Blocks.run m ρ Cert.Attn.Pay.pay_apply (prologue m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.Attn.Ref.ref_eq, (hagree c).1, (hagree c).2.1, (hagree c).2.2.1,
    (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
